-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S128x1 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg20
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S128x128 .f32) (main_arg17 : FVec F S128 .f32) (main_arg18 : FVec F S128x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S800000x2 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x1 .f32) (main_arg21 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S800000x2 : Shape := ⟨2, ![800000, 2]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000x1 : Shape := ⟨2, ![800000, 1]⟩
abbrev S800000 : Shape := ⟨1, ![800000]⟩
abbrev S_ : Shape := ⟨0, ![]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 141
  | .vmem => 61
  | .smem => 0
  | _ => 0

abbrev hbmTy0_0 (i : Nat) : BufTy := match i % 128 with
  | 0 => ⟨S50000x128, .f32⟩
  | 1 => ⟨S800000x2, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S800000x1, .i32⟩
  | 23 => ⟨S800000, .i32⟩
  | 24 => ⟨S800000x1, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x128, .f32⟩
  | 54 => ⟨S50000x128, .bf16⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .bf16⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S1x128, .f32⟩
  | 70 => ⟨S50000x128, .bf16⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .bf16⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128, .f32⟩
  | 86 => ⟨S50000x128, .bf16⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .bf16⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S1x128, .f32⟩
  | 102 => ⟨S50000x128, .bf16⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .bf16⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1x128, .f32⟩
  | 118 => ⟨S50000x128, .bf16⟩
  | 119 => ⟨S50000x128, .f32⟩
  | 120 => ⟨S_, .f32⟩
  | 121 => ⟨S50000, .f32⟩
  | 122 => ⟨S_, .f32⟩
  | 123 => ⟨S128, .f32⟩
  | 124 => ⟨S50000x1, .i32⟩
  | 125 => ⟨S128, .f32⟩
  | 126 => ⟨S_, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S_, .f32⟩
  | 3 => ⟨S128x128, .f32⟩
  | 4 => ⟨S50000x1, .i32⟩
  | 5 => ⟨S128x128, .f32⟩
  | 6 => ⟨S128x1, .f32⟩
  | 7 => ⟨S128x128, .f32⟩
  | 8 => ⟨S128x128, .f32⟩
  | 9 => ⟨S1x128, .f32⟩
  | 10 => ⟨S1x1, .f32⟩
  | 11 => ⟨S128x1, .f32⟩
  | 12 => ⟨S128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .bf16⟩
  | .local _ .vmem, ⟨32, _⟩ => ⟨S5000x128, .bf16⟩
  | .local _ .vmem, ⟨33, _⟩ => ⟨S5000x128, .f32⟩
  | .local _ .vmem, ⟨34, _⟩ => ⟨S5000x128, .f32⟩
  | .local _ .vmem, ⟨35, _⟩ => ⟨S5000x128, .bf16⟩
  | .local _ .vmem, ⟨36, _⟩ => ⟨S5000x128, .bf16⟩
  | .local _ .vmem, ⟨37, _⟩ => ⟨S5000x1, .f32⟩
  | .local _ .vmem, ⟨38, _⟩ => ⟨S5000x1, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S5000x128, .bf16⟩
  | .local _ .vmem, ⟨43, _⟩ => ⟨S5000x128, .bf16⟩
  | .local _ .vmem, ⟨44, _⟩ => ⟨S5000x128, .f32⟩
  | .local _ .vmem, ⟨45, _⟩ => ⟨S5000x128, .f32⟩
  | .local _ .vmem, ⟨46, _⟩ => ⟨S5000x128, .bf16⟩
  | .local _ .vmem, ⟨47, _⟩ => ⟨S5000x128, .bf16⟩
  | .local _ .vmem, ⟨48, _⟩ => ⟨S5000x1, .f32⟩
  | .local _ .vmem, ⟨49, _⟩ => ⟨S5000x1, .f32⟩
  | .local _ .vmem, ⟨50, _⟩ => ⟨S128x128, .f32⟩
  | .local _ .vmem, ⟨51, _⟩ => ⟨S128x128, .f32⟩
  | .local _ .vmem, ⟨52, _⟩ => ⟨S1x128, .f32⟩
  | .local _ .vmem, ⟨53, _⟩ => ⟨S5000x128, .bf16⟩
  | .local _ .vmem, ⟨54, _⟩ => ⟨S5000x128, .bf16⟩
  | .local _ .vmem, ⟨55, _⟩ => ⟨S128x128, .f32⟩
  | .local _ .vmem, ⟨56, _⟩ => ⟨S128x128, .f32⟩
  | .local _ .vmem, ⟨57, _⟩ => ⟨S1x128, .f32⟩
  | .local _ .vmem, ⟨58, _⟩ => ⟨S128x1, .f32⟩
  | .local _ .vmem, ⟨59, _⟩ => ⟨S1x1, .f32⟩
  | .local _ .vmem, ⟨60, _⟩ => ⟨S128x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v8 : Ref sig .tc := ⟨.hbm, 35, rfl⟩
abbrev main_cst_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_8 : Ref sig .tc := ⟨.hbm, 71, rfl⟩
abbrev main_v37 : Ref sig .tc := ⟨.hbm, 72, rfl⟩
abbrev main_v38 : Ref sig .tc := ⟨.hbm, 73, rfl⟩
abbrev main_c_9 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_c_12 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_13 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_17 : Ref sig .tc := ⟨.hbm, 120, rfl⟩
abbrev main_v77 : Ref sig .tc := ⟨.hbm, 121, rfl⟩
abbrev main_cst_18 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_19 : Ref sig .tc := ⟨.hbm, 126, rfl⟩
abbrev main_call1_v0 : Ref sig .tc := ⟨.hbm, 127, rfl⟩
abbrev main_call1_v1 : Ref sig .tc := ⟨.hbm, 128, rfl⟩
abbrev main_v81 : Ref sig .tc := ⟨.hbm, 129, rfl⟩
abbrev main_cst_20 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S128 : S_.BroadcastsInDim S128 (![] : Fin 0 → Fin S128.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S1_S1x1 : S1.ShapeCasts S1x1
  shapeCasts_S128x128_S128x128 : S128x128.ShapeCasts S128x128
  broadcasts_S1x128_S128x128 : S1x128.Broadcasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  shapeCasts_S128x1_S128 : S128x1.ShapeCasts S128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .bf16 = 32 ∨ (Rect.block (s := S50000x128) S5000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .bf16 = 32 ∨ (Rect.block (s := S50000x128) S5000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .bf16 = 32 ∨ (Rect.block (s := S50000x128) S5000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .bf16 = 32 ∨ (Rect.block (s := S50000x128) S5000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .bf16 = 32 ∨ (Rect.block (s := S50000x128) S5000x128.size (cc4_transform_6 i) (hinb4_6 i)).WholeWords (EltTy.packing .bf16)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x128.size a ≤ S128x128.size a
  hwx5_0 : ∀ i : grid5.Coords, EltTy.bits .f32 = 32 ∨ (Rect.block (s := S128x128) S128x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x1.size a ≤ S128x1.size a
  hwx5_5 : ∀ i : grid5.Coords, EltTy.bits .f32 = 32 ∨ (Rect.block (s := S128x1) S128x1.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v87) S128x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg20) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S128x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000x2 : Shape := ⟨2, ![800000, 2]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000x1 : Shape := ⟨2, ![800000, 1]⟩
abbrev S800000 : Shape := ⟨1, ![800000]⟩
abbrev S_ : Shape := ⟨0, ![]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S800000x2, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S800000x1, .i32⟩
  | 23 => ⟨S800000, .i32⟩
  | 24 => ⟨S800000x1, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x1, .f32⟩
  | 50 => ⟨S50000x128, .f32⟩
  | 51 => ⟨S50000x128, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000x1, .f32⟩
  | 75 => ⟨S50000x128, .f32⟩
  | 76 => ⟨S50000x128, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x1, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S_, .f32⟩
  | 18 => ⟨S50000x128, .f32⟩
  | 19 => ⟨S800000x1, .i32⟩
  | 20 => ⟨S50000x128, .f32⟩
  | 21 => ⟨S50000x1, .f32⟩
  | 22 => ⟨S50000x128, .f32⟩
  | 23 => ⟨S50000x128, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S50000, .f32⟩
  | 35 => ⟨S_, .f32⟩
  | 36 => ⟨S128, .f32⟩
  | 37 => ⟨S50000x1, .i32⟩
  | 38 => ⟨S128, .f32⟩
  | 39 => ⟨S_, .f32⟩
  | 40 => ⟨S_, .f32⟩
  | 41 => ⟨S128, .f32⟩
  | 42 => ⟨S128, .f32⟩
  | 43 => ⟨S_, .f32⟩
  | 44 => ⟨S128x128, .f32⟩
  | 45 => ⟨S50000x1, .i32⟩
  | 46 => ⟨S128x128, .f32⟩
  | 47 => ⟨S128x1, .f32⟩
  | 48 => ⟨S128x128, .f32⟩
  | 49 => ⟨S128x128, .f32⟩
  | 50 => ⟨S128x128, .f32⟩
  | 51 => ⟨S1x128, .f32⟩
  | 52 => ⟨S128x128, .f32⟩
  | 53 => ⟨S128x128, .f32⟩
  | 54 => ⟨S_, .f32⟩
  | 55 => ⟨S128x128, .f32⟩
  | 56 => ⟨S128x128, .f32⟩
  | 57 => ⟨S128x1, .f32⟩
  | 58 => ⟨S1x1, .f32⟩
  | 59 => ⟨S128x1, .f32⟩
  | 60 => ⟨S128x1, .f32⟩
  | 61 => ⟨S128x1, .f32⟩
  | 62 => ⟨S128x1, .f32⟩
  | 63 => ⟨S_, .f32⟩
  | 64 => ⟨S128x1, .f32⟩
  | 65 => ⟨S128x1, .f32⟩
  | 66 => ⟨S_, .f32⟩
  | 67 => ⟨S128x1, .f32⟩
  | 68 => ⟨S128x1, .f32⟩
  | 69 => ⟨S128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call1_cst : Ref sig .tc := ⟨.hbm, 58, rfl⟩
abbrev main_call1_v0 : Ref sig .tc := ⟨.hbm, 59, rfl⟩
abbrev main_v28 : Ref sig .tc := ⟨.hbm, 60, rfl⟩
abbrev main_c_4 : Ref sig .tc := ⟨.hbm, 61, rfl⟩
abbrev main_v29 : Ref sig .tc := ⟨.hbm, 62, rfl⟩
abbrev main_v30 : Ref sig .tc := ⟨.hbm, 63, rfl⟩
abbrev main_c_5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call2_cst : Ref sig .tc := ⟨.hbm, 83, rfl⟩
abbrev main_call2_v0 : Ref sig .tc := ⟨.hbm, 84, rfl⟩
abbrev main_v48 : Ref sig .tc := ⟨.hbm, 85, rfl⟩
abbrev main_c_7 : Ref sig .tc := ⟨.hbm, 86, rfl⟩
abbrev main_v49 : Ref sig .tc := ⟨.hbm, 87, rfl⟩
abbrev main_v50 : Ref sig .tc := ⟨.hbm, 88, rfl⟩
abbrev main_c_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_9 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_call3_cst : Ref sig .tc := ⟨.hbm, 108, rfl⟩
abbrev main_call3_v0 : Ref sig .tc := ⟨.hbm, 109, rfl⟩
abbrev main_v68 : Ref sig .tc := ⟨.hbm, 110, rfl⟩
abbrev main_c_10 : Ref sig .tc := ⟨.hbm, 111, rfl⟩
abbrev main_v69 : Ref sig .tc := ⟨.hbm, 112, rfl⟩
abbrev main_v70 : Ref sig .tc := ⟨.hbm, 113, rfl⟩
abbrev main_c_11 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_12 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call4_cst : Ref sig .tc := ⟨.hbm, 133, rfl⟩
abbrev main_call4_v0 : Ref sig .tc := ⟨.hbm, 134, rfl⟩
abbrev main_v88 : Ref sig .tc := ⟨.hbm, 135, rfl⟩
abbrev main_c_13 : Ref sig .tc := ⟨.hbm, 136, rfl⟩
abbrev main_v89 : Ref sig .tc := ⟨.hbm, 137, rfl⟩
abbrev main_v90 : Ref sig .tc := ⟨.hbm, 138, rfl⟩
abbrev main_c_14 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_15 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_call5_cst : Ref sig .tc := ⟨.hbm, 158, rfl⟩
abbrev main_call5_v0 : Ref sig .tc := ⟨.hbm, 159, rfl⟩
abbrev main_v108 : Ref sig .tc := ⟨.hbm, 160, rfl⟩
abbrev main_cst_16 : Ref sig .tc := ⟨.hbm, 161, rfl⟩
abbrev main_v109 : Ref sig .tc := ⟨.hbm, 162, rfl⟩
abbrev main_cst_17 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_18 : Ref sig .tc := ⟨.hbm, 167, rfl⟩
abbrev main_call6_v0 : Ref sig .tc := ⟨.hbm, 168, rfl⟩
abbrev main_call6_v1 : Ref sig .tc := ⟨.hbm, 169, rfl⟩
abbrev main_v113 : Ref sig .tc := ⟨.hbm, 170, rfl⟩
abbrev main_cst_19 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_call7_cst : Ref sig .tc := ⟨.hbm, 182, rfl⟩
abbrev main_call7_v0 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_20 : Ref sig .tc := ⟨.hbm, 191, rfl⟩
abbrev main_v131 : Ref sig .tc := ⟨.hbm, 192, rfl⟩
abbrev main_v132 : Ref sig .tc := ⟨.hbm, 193, rfl⟩
abbrev main_cst_21 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  shapeCasts_S128x1_S128 : S128x1.ShapeCasts S128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.KRun.lean ====
/-
  The idealized kernel program's run with its result named.

  The program is seventeen segments: stretches of host operations and six kernel regions. Its frame proof already follows
  the buffer contents from the launch through every segment boundary; the last boundary's contents are what every
  unscoped buffer holds when the program returns. Here the same run is read at ALL those buffers, not only at the
  arguments: each ends at the last boundary's contents. The result buffer and the arguments are then instances.
-/
import proofs.«146102_j22763326669149_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends
    at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The run read at the result buffer and at the arguments: the result ends at the last boundary's contents there, the
    arguments as launched. -/
theorem run_result : θ_run defs (onTc (τ := τ) (main (F := F))) ⟨m, fun _ => 0, ρ⟩ (fun r => ∀ c : Dev nD,
      r.2.mem ((c.tc : Thread nD τ).loc main_v91) = W17 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v91 (by decide)),
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c),
      (h c _ (mem_uc main_arg9 (by decide))).trans (W17_main_arg9 m ρ c),
      (h c _ (mem_uc main_arg10 (by decide))).trans (W17_main_arg10 m ρ c),
      (h c _ (mem_uc main_arg11 (by decide))).trans (W17_main_arg11 m ρ c),
      (h c _ (mem_uc main_arg12 (by decide))).trans (W17_main_arg12 m ρ c),
      (h c _ (mem_uc main_arg13 (by decide))).trans (W17_main_arg13 m ρ c),
      (h c _ (mem_uc main_arg14 (by decide))).trans (W17_main_arg14 m ρ c),
      (h c _ (mem_uc main_arg15 (by decide))).trans (W17_main_arg15 m ρ c),
      (h c _ (mem_uc main_arg16 (by decide))).trans (W17_main_arg16 m ρ c),
      (h c _ (mem_uc main_arg17 (by decide))).trans (W17_main_arg17 m ρ c),
      (h c _ (mem_uc main_arg18 (by decide))).trans (W17_main_arg18 m ρ c),
      (h c _ (mem_uc main_arg19 (by decide))).trans (W17_main_arg19 m ρ c),
      (h c _ (mem_uc main_arg20 (by decide))).trans (W17_main_arg20 m ρ c),
      (h c _ (mem_uc main_arg21 (by decide))).trans (W17_main_arg21 m ρ c)⟩) (run_all m ρ)

end Cert.Sage.KRun

end
-- ==== Proof.Net.lean ====
/-
  The network as plain mathematics on the extended reals, with no program in sight.

  A matrix is a function of a pair of coordinates into the extended reals. One graph layer takes the neighbour sums
  agg [N,K], the node features h [N,K], a column inv [N,1] of reciprocal degrees, two weight matrices Wl, Wr [K,H] and a
  bias row b [1,H] to
      out(r, q) = max( (Σ_k (agg(r,k) · inv(r)) · Wl(k,q) + Σ_k h(r,k) · Wr(k,q)) + b(q), 0 ).
  The read-out takes the pooled features g [G,H], a hidden weight matrix W1 [H,H] with bias row b1, an output column
  W2 [H,1] with bias b2 to
      out(r) = logistic( Σ_k max(Σ_j g(r,j) · W1(j,k) + b1(k), 0) · W2(k) + b2 ).
  The whole network is five layers, each fed the neighbour sums of the previous layer's output, then a pooling, the
  read-out and a final relabelling of the result. How neighbour sums and pooling are computed does not matter to the
  composition, so they enter as arbitrary functions.
-/
import Idealize.ShloMosaic.Lib.ValueIdx
import Idealize.ShloMosaic.PureOps.Ideal

noncomputable section

open scoped BigOperators

namespace Cert.Sage

open Idealize.ShloMosaic Idealize.ShloMosaic.ValueIdx

/-- An a × b matrix of extended reals, as a function of its index. -/
abbrev Mat (a b : ℕ) : Type := (⟨2, ![a, b]⟩ : Shape).Idx → EReal

/-- One graph layer on whole matrices. -/
def layerOut {N K H : ℕ} (A0 A1 : Mat N K) (A2 : Mat N 1) (A3 A4 : Mat K H) (A5 : Mat 1 H) : Mat N H := fun i =>
  max (((∑ k : Fin K, (A0 (ix2 (i 0) k) * A2 (ix2 (i 0) (0 : Fin 1))) * A3 (ix2 k (i 1)))
        + ∑ k : Fin K, A1 (ix2 (i 0) k) * A4 (ix2 k (i 1))) + A5 (ix2 (0 : Fin 1) (i 1))) 0

/-- The layer at the entry (r, q). -/
theorem layerOut_apply {N K H : ℕ} (A0 A1 : Mat N K) (A2 : Mat N 1) (A3 A4 : Mat K H) (A5 : Mat 1 H) (r : Fin N) (q : Fin H) :
    layerOut A0 A1 A2 A3 A4 A5 (ix2 r q)
      = max (((∑ k : Fin K, (A0 (ix2 r k) * A2 (ix2 r (0 : Fin 1))) * A3 (ix2 k q))
          + ∑ k : Fin K, A1 (ix2 r k) * A4 (ix2 k q)) + A5 (ix2 (0 : Fin 1) q)) 0 := rfl

/-- The read-out on whole matrices. -/
def mlpOut {G H : ℕ} (g : Mat G H) (W1 : Mat H H) (b1 : Mat 1 H) (W2 : Mat H 1) (b2 : Mat 1 1) : Mat G 1 := fun i =>
  Ideal.logistic ((∑ k : Fin H, max ((∑ j : Fin H, g (ix2 (i 0) j) * W1 (ix2 j k)) + b1 (ix2 (0 : Fin 1) k)) 0
      * W2 (ix2 k (0 : Fin 1))) + b2 (ix2 (0 : Fin 1) (0 : Fin 1)))

/-- The read-out at the entry (r, z). -/
theorem mlpOut_apply {G H : ℕ} (g : Mat G H) (W1 : Mat H H) (b1 : Mat 1 H) (W2 : Mat H 1) (b2 : Mat 1 1) (r : Fin G) (z : Fin 1) :
    mlpOut g W1 b1 W2 b2 (ix2 r z)
      = Ideal.logistic ((∑ k : Fin H, max ((∑ j : Fin H, g (ix2 r j) * W1 (ix2 j k)) + b1 (ix2 (0 : Fin 1) k)) 0
          * W2 (ix2 k (0 : Fin 1))) + b2 (ix2 (0 : Fin 1) (0 : Fin 1))) := rfl

/-- The whole network: five layers over one neighbour-sum map and one reciprocal-degree column, a pooling, the read-out,
    and a last relabelling of the result. -/
def net {N H G : ℕ} {R : Type} (agg : Mat N H → Mat N H) (inv : Mat N 1) (pool : Mat N H → Mat G H) (fin : Mat G 1 → R)
    (X : Mat N H) (Wl1 Wr1 : Mat H H) (b1 : Mat 1 H) (Wl2 Wr2 : Mat H H) (b2 : Mat 1 H) (Wl3 Wr3 : Mat H H) (b3 : Mat 1 H)
    (Wl4 Wr4 : Mat H H) (b4 : Mat 1 H) (Wl5 Wr5 : Mat H H) (b5 : Mat 1 H)
    (Wf1 : Mat H H) (bf1 : Mat 1 H) (Wf2 : Mat H 1) (bf2 : Mat 1 1) : R :=
  let h1 := layerOut (agg X) X inv Wl1 Wr1 b1
  let h2 := layerOut (agg h1) h1 inv Wl2 Wr2 b2
  let h3 := layerOut (agg h2) h2 inv Wl3 Wr3 b3
  let h4 := layerOut (agg h3) h3 inv Wl4 Wr4 b4
  let h5 := layerOut (agg h4) h4 inv Wl5 Wr5 b5
  fin (mlpOut (pool h5) Wf1 bf1 Wf2 bf2)

end Cert.Sage

end
-- ==== Proof.FoldDefs.lean ====
/-
  The host-side pieces of the kernel program as functions of the argument arrays, at any float instance.

  Around its six kernel regions the program works on the host: it splits the edge list into a column of sources and a
  column of targets; counts in-degrees by adding ones at the targets, clamps them below by one and takes reciprocals;
  before each layer gathers the previous features at the sources (a negative source wrapped by the number of nodes) and
  adds them up at the targets; after the last layer adds the features of each graph's nodes and divides by the clamped
  node count; and finally relabels the [128,1] result as a vector. Each piece is named here once, in the program's own
  spelling, so that the run can be read against these names and the reference's copies compared with them whole.
-/
import proofs.«146102_j22763326669149_2_alg».proof.KernelIdeal
import proofs.«146102_j22763326669149_2_alg».proof.Proof.Gen.KernelIdeal
import proofs.«146102_j22763326669149_2_alg».proof.Proof.Net

noncomputable section

namespace Cert.Sage

open Cert.KernelIdeal Cert.KernelIdeal.Gen Idealize.ShloMosaic

variable {F : FTy → Type} [FloatOps F]

/-- An array of 32-bit integer words. -/
abbrev IArr (F : FTy → Type) (S : Shape) : Type := (⟨S, .i32⟩ : BufTy).Contents (Elt F)

/-- The edge list's column of sources, as a vector. -/
def srcG (E : IArr F S800000x2) : IArr F S800000 :=
  shapeCast _ (extractStridedSlice S800000x1 ![0, 0] E slices_S800000x2_S800000x1_0_0) shapeCasts_S800000x1_S800000

/-- The edge list's column of targets, as a vector. -/
def dstG (E : IArr F S800000x2) : IArr F S800000 :=
  shapeCast _ (extractStridedSlice S800000x1 ![0, 1] E slices_S800000x2_S800000x1_0_1) shapeCasts_S800000x1_S800000

/-- The sources as gather indices: a negative source wrapped by the number of nodes, one index per row. -/
def gidxG (E : IArr F S800000x2) : IArr F S800000x1 :=
  broadcastInDim S800000x1 ![0] bcast_S800000_S800000x1_0
    (select (cmpi .slt (srcG E) (broadcastInDim S800000 ![] bcast_S_S800000 (constantI S_ 32 0#32)))
      (addi (srcG E) (broadcastInDim S800000 ![] bcast_S_S800000 (constantI S_ 32 50000#32))) (srcG E))

/-- Neighbour sums of single-precision features: the rows at the sources added up at the targets. -/
def aggG (E : IArr F S800000x2) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstG E))
    (Host.gather gather_S50000x128_S800000x1_S800000x128_1_0_n_n_0_1_1128 h (gidxG E))

/-- Neighbour sums of half-width features: gathered, widened, then added up at the targets. -/
def aggB (E : IArr F S800000x2) (h : FVec F S50000x128 .bf16) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstG E))
    (extf .f32 (Host.gather gather_S50000x128_S800000x1_S800000x128_1_0_n_n_0_1_1128 h (gidxG E)) bitsLt_bf16_f32)

/-- In-degrees clamped below by one. -/
def degG (E : IArr F S800000x2) : FVec F S50000 .f32 :=
  maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 (dstG E))
      (broadcastInDim S800000 ![] bcast_S_S800000 (constant S_ .f32 0x3F800000#32)))

/-- The column of reciprocal clamped degrees. -/
def invG (E : IArr F S800000x2) : FVec F S50000x1 .f32 :=
  shapeCast S50000x1 (Host.divf (broadcastInDim S50000 ![] bcast_S_S50000 (constant S_ .f32 0x3F800000#32)) (degG E))
    shapeCasts_S50000_S50000x1

/-- A bias vector as one row. -/
def rowG (b : FVec F S128 .f32) : FVec F S1x128 .f32 := shapeCast S1x128 b shapeCasts_S128_S1x128

/-- The last bias as a 1 × 1 matrix. -/
def oneG (b : FVec F S1 .f32) : FVec F S1x1 .f32 := shapeCast S1x1 b shapeCasts_S1_S1x1

/-- Mean pooling: the features of each graph's nodes added up, divided by the node count clamped below by one. -/
def poolG (B : IArr F S50000) (h : FVec F S50000x128 .f32) : FVec F S128x128 .f32 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 B) h)
    (broadcastInDim S128x128 ![0, 1] bcast_S128x1_S128x128_0_1
      (broadcastInDim S128x1 ![0] bcast_S128_S128x1_0
        (maximumf (broadcastInDim S128 ![] bcast_S_S128 (id (constant S_ .f32 0x3F800000#32)))
          (Host.scatterAdd scatter_S128_S50000x1_S50000_n_0_0_1
            (broadcastInDim S128 ![] bcast_S_S128 (constant S_ .f32 0x00000000#32))
            (broadcastInDim S50000x1 ![0] bcast_S50000_S50000x1_0 B)
            (broadcastInDim S50000 ![] bcast_S_S50000 (constant S_ .f32 0x3F800000#32))))))

/-- The result column relabelled as a vector. -/
def finG (y : FVec F S128x1 .f32) : FVec F S128 .f32 := shapeCast S128 y shapeCasts_S128x1_S128

/-- Equal arguments give equal layers. -/
theorem layerOut_congr {N K H : ℕ} {A0 A0' A1 A1' : Mat N K} {A2 A2' : Mat N 1} {A3 A3' A4 A4' : Mat K H} {A5 A5' : Mat 1 H}
    (h0 : A0 = A0') (h1 : A1 = A1') (h2 : A2 = A2') (h3 : A3 = A3') (h4 : A4 = A4') (h5 : A5 = A5') :
    layerOut A0 A1 A2 A3 A4 A5 = layerOut A0' A1' A2' A3' A4' A5' := by
  subst h0 h1 h2 h3 h4 h5; rfl

/-- Equal arguments give equal read-outs. -/
theorem mlpOut_congr {G H : ℕ} {g g' : Mat G H} {W1 W1' : Mat H H} {b1 b1' : Mat 1 H} {W2 W2' : Mat H 1} {b2 b2' : Mat 1 1}
    (h0 : g = g') (h1 : W1 = W1') (h2 : b1 = b1') (h3 : W2 = W2') (h4 : b2 = b2') :
    mlpOut g W1 b1 W2 b2 = mlpOut g' W1' b1' W2' b2' := by
  subst h0 h1 h2 h3 h4; rfl

/-- At the extended reals widening is the identity, so the two neighbour sums are one function. -/
theorem aggB_eq (E : IArr Ideal S800000x2) (h : FVec Ideal S50000x128 .bf16) : aggB (F := Ideal) E h = aggG (F := Ideal) E h := rfl

end Cert.Sage

end
-- ==== Proof.LayerBlock.lean ====
import proofs.«146102_j22763326669149_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Block

open Idealize.ShloMosaic Idealize.ShloMosaic.ValueIdx Cert.KernelIdeal Cert.KernelIdeal.Gen

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product's dimension numbers: rows × contraction times contraction × columns. -/
abbrev D : DotDims S5000x128 S128x128 S5000x128 := dot_S5000x128_S128x128_S5000x128_1_0_0_1_n_n

/-- The left operand is read on the output's row. -/
theorem lhs_row (i : S5000x128.Idx) (k : D.contr.Idx) : (D.lhsIdx i k 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

/-- The right operand is read on the output's column. -/
theorem rhs_col (i : S5000x128.Idx) (k : D.contr.Idx) : (D.rhsIdx i k 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- The block product into the zero accumulator, at the entry (a, q): the sum over the contraction index. -/
theorem matmul_zero_apply {φ₁ φ₂ : FTy} (lhs : FVec Ideal S5000x128 φ₁) (rhs : FVec Ideal S128x128 φ₂) (a : Fin 5000) (q : Fin 128) :
    matmul D none lhs rhs (constant (F := Ideal) S5000x128 .f32 0x00000000#32) (ix2 a q)
      = ∑ k : Fin 128, lhs (ix2 a k) * rhs (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 a q) ((contrEquiv1 D 128 rfl rfl).symm k) = ix2 a k := funext fun ax => Fin.ext (by
    match ax with
    | ⟨0, _⟩ => exact lhs_row _ _
    | ⟨1, _⟩ => exact (D.lhsIdx_val_of_single rfl _ _).trans hk)
  have er : D.rhsIdx (ix2 a q) ((contrEquiv1 D 128 rfl rfl).symm k) = ix2 k q := funext fun ax => Fin.ext (by
    match ax with
    | ⟨0, _⟩ => exact (D.rhsIdx_val_of_single rfl _ _).trans hk
    | ⟨1, _⟩ => exact rhs_col _ _)
  rw [el, er]

/-- The first layer's block at the entry (a, q): the products are exact sums and every rounding is the identity. -/
theorem k0_pay1_apply (x0 : Vec Ideal S5000x128 .f32) (x2 : Vec Ideal S5000x1 .f32) (x1 : Vec Ideal S5000x128 .f32)
    (x3 x4 : Vec Ideal S128x128 .f32) (x5 : Vec Ideal S1x128 .f32) (a : Fin 5000) (q : Fin 128) :
    k0_pay1 (F := Ideal) x0 x2 x1 x3 x4 x5 (ix2 a q)
      = max (((∑ k : Fin 128, (x0 (ix2 a k) * x2 (ix2 a (0 : Fin 1))) * x3 (ix2 k q))
          + ∑ k : Fin 128, x1 (ix2 a k) * x4 (ix2 k q)) + x5 (ix2 (0 : Fin 1) q)) 0 := by
  unfold k0_pay1
  simp only [truncf_apply, maximumf_apply, addf_apply, broadcast_apply]
  rw [matmul_zero_apply, matmul_zero_apply, broadcastTo_1b_ab_apply]
  show max (_ + _ + _) (Ideal.ofBits .f32 0x00000000#32) = _
  rw [Ideal.ofBits_zero_f32]
  simp only [truncf_apply, mulf_apply, shapeCast_self, broadcastTo_a1_ab_apply]

/-- The second layer's block at the entry (a, q): the products are exact sums and every rounding is the identity. -/
theorem k1_pay1_apply (x0 : Vec Ideal S5000x128 .f32) (x2 : Vec Ideal S5000x1 .f32) (x1 : Vec Ideal S5000x128 .bf16)
    (x3 x4 : Vec Ideal S128x128 .f32) (x5 : Vec Ideal S1x128 .f32) (a : Fin 5000) (q : Fin 128) :
    k1_pay1 (F := Ideal) x0 x2 x1 x3 x4 x5 (ix2 a q)
      = max (((∑ k : Fin 128, (x0 (ix2 a k) * x2 (ix2 a (0 : Fin 1))) * x3 (ix2 k q))
          + ∑ k : Fin 128, x1 (ix2 a k) * x4 (ix2 k q)) + x5 (ix2 (0 : Fin 1) q)) 0 := by
  unfold k1_pay1
  simp only [truncf_apply, maximumf_apply, addf_apply, broadcast_apply]
  rw [matmul_zero_apply, matmul_zero_apply, broadcastTo_1b_ab_apply]
  show max (_ + _ + _) (Ideal.ofBits .f32 0x00000000#32) = _
  rw [Ideal.ofBits_zero_f32]
  simp only [truncf_apply, mulf_apply, shapeCast_self, broadcastTo_a1_ab_apply]

/-- The third layer's block at the entry (a, q): the products are exact sums and every rounding is the identity. -/
theorem k2_pay1_apply (x0 : Vec Ideal S5000x128 .f32) (x2 : Vec Ideal S5000x1 .f32) (x1 : Vec Ideal S5000x128 .bf16)
    (x3 x4 : Vec Ideal S128x128 .f32) (x5 : Vec Ideal S1x128 .f32) (a : Fin 5000) (q : Fin 128) :
    k2_pay1 (F := Ideal) x0 x2 x1 x3 x4 x5 (ix2 a q)
      = max (((∑ k : Fin 128, (x0 (ix2 a k) * x2 (ix2 a (0 : Fin 1))) * x3 (ix2 k q))
          + ∑ k : Fin 128, x1 (ix2 a k) * x4 (ix2 k q)) + x5 (ix2 (0 : Fin 1) q)) 0 := by
  unfold k2_pay1
  simp only [truncf_apply, maximumf_apply, addf_apply, broadcast_apply]
  rw [matmul_zero_apply, matmul_zero_apply, broadcastTo_1b_ab_apply]
  show max (_ + _ + _) (Ideal.ofBits .f32 0x00000000#32) = _
  rw [Ideal.ofBits_zero_f32]
  simp only [truncf_apply, mulf_apply, shapeCast_self, broadcastTo_a1_ab_apply]

/-- The fourth layer's block at the entry (a, q): the products are exact sums and every rounding is the identity. -/
theorem k3_pay1_apply (x0 : Vec Ideal S5000x128 .f32) (x2 : Vec Ideal S5000x1 .f32) (x1 : Vec Ideal S5000x128 .bf16)
    (x3 x4 : Vec Ideal S128x128 .f32) (x5 : Vec Ideal S1x128 .f32) (a : Fin 5000) (q : Fin 128) :
    k3_pay1 (F := Ideal) x0 x2 x1 x3 x4 x5 (ix2 a q)
      = max (((∑ k : Fin 128, (x0 (ix2 a k) * x2 (ix2 a (0 : Fin 1))) * x3 (ix2 k q))
          + ∑ k : Fin 128, x1 (ix2 a k) * x4 (ix2 k q)) + x5 (ix2 (0 : Fin 1) q)) 0 := by
  unfold k3_pay1
  simp only [truncf_apply, maximumf_apply, addf_apply, broadcast_apply]
  rw [matmul_zero_apply, matmul_zero_apply, broadcastTo_1b_ab_apply]
  show max (_ + _ + _) (Ideal.ofBits .f32 0x00000000#32) = _
  rw [Ideal.ofBits_zero_f32]
  simp only [truncf_apply, mulf_apply, shapeCast_self, broadcastTo_a1_ab_apply]

/-- The fifth layer's block at the entry (a, q): the products are exact sums and every rounding is the identity. -/
theorem k4_pay1_apply (x0 : Vec Ideal S5000x128 .f32) (x2 : Vec Ideal S5000x1 .f32) (x1 : Vec Ideal S5000x128 .bf16)
    (x3 x4 : Vec Ideal S128x128 .f32) (x5 : Vec Ideal S1x128 .f32) (a : Fin 5000) (q : Fin 128) :
    k4_pay1 (F := Ideal) x0 x2 x1 x3 x4 x5 (ix2 a q)
      = max (((∑ k : Fin 128, (x0 (ix2 a k) * x2 (ix2 a (0 : Fin 1))) * x3 (ix2 k q))
          + ∑ k : Fin 128, x1 (ix2 a k) * x4 (ix2 k q)) + x5 (ix2 (0 : Fin 1) q)) 0 := by
  unfold k4_pay1
  simp only [truncf_apply, maximumf_apply, addf_apply, broadcast_apply]
  rw [matmul_zero_apply, matmul_zero_apply, broadcastTo_1b_ab_apply]
  show max (_ + _ + _) (Ideal.ofBits .f32 0x00000000#32) = _
  rw [Ideal.ofBits_zero_f32]
  simp only [truncf_apply, mulf_apply, shapeCast_self, broadcastTo_a1_ab_apply]

end Cert.Sage.Block

end
-- ==== Proof.Region0.lean ====
import proofs.«146102_j22763326669149_2_alg».proof.Proof.Gen.KernelIdeal.Frame
import proofs.«146102_j22763326669149_2_alg».proof.Proof.Net
import proofs.«146102_j22763326669149_2_alg».proof.Proof.LayerBlock

set_option maxRecDepth 16384

noncomputable section

namespace Cert.Sage.Region0

open Idealize.ShloMosaic Idealize.ShloMosaic.TcCoe Idealize.ShloMosaic.ValueIdx Cert.KernelIdeal Cert.KernelIdeal.Gen Cert.Sage Cert.Sage.Block

variable (V : (c : Dev nD) → (b : Ref sig .tc) → Buf (Elt Ideal) ((c : Thread nD τ).loc b))

/-- The body's accesses start at the origin of their buffers. -/
theorem hz : (![0, 0] : Fin 2 → Nat) = fun _ => 0 := funext fun a => by fin_cases a <;> rfl

/-- The block indices over the grid: the node-tiled windows sit at the point's own row block, the weights and the bias
    at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the layer of the six arrays as the region finds them: the entry (a, q) of the
    block is the entry (5000 t + a, q) of the array, whose row of neighbour sums, own row and reciprocal degree are the
    rows a of the three node-tiled blocks, the weights and the bias being whole. -/
theorem flushed_eq (c : Dev nD) (t : Fin cfg0.N) :
    (dat0 (F := Ideal) V c).flushed 6 t = ((cfg0.win 6).blk t).view.read (Elt Ideal)
      (layerOut (N := 50000) (K := 128) (H := 128) (V c main_v21) (V c main_arg0) (V c main_v11) (V c main_arg3) (V c main_arg4) (V c main_v22)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨a, q, rfl⟩ : ∃ (a : Fin 5000) (q : Fin 128), j = ix2 a q := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 a q)
    = layerOut (N := 50000) (K := 128) (H := 128) (V c main_v21) (V c main_arg0) (V c main_v11) (V c main_arg3) (V c main_arg4) (V c main_v22)
        (((cfg0.win 6).blk t).view.emb (ix2 a q))
  refine (k0_pay1_apply (iblk0 V c 0 t) (iblk0 V c 2 t) (iblk0 V c 1 t) (iblk0 V c 3 t) (iblk0 V c 4 t) (iblk0 V c 5 t) a q).trans ?_
  obtain ⟨i00, i01, i10, i11, i20, i21, i30, i31, i40, i41, i50, i51, i60, i61⟩ := idx_facts t
  have ht : t.val < 10 := lt_of_lt_of_eq t.isLt N_0
  have ha : a.val < 5000 := a.isLt
  have hr : t.val * 5000 + a.val < 50000 := by omega
  have e6 : ((cfg0.win 6).blk t).view.emb (ix2 a q) = ix2 (⟨t.val * 5000 + a.val, hr⟩ : Fin 50000) q :=
    funext fun ax => Fin.ext (by
      match ax with
      | ⟨0, _⟩ => show win0_6.index t (0 : Fin 2) * 5000 + 1 * a.val = t.val * 5000 + a.val; omega
      | ⟨1, _⟩ => show win0_6.index t (1 : Fin 2) * 128 + 1 * q.val = q.val; omega)
  rw [e6, layerOut_apply]
  have b0 : ∀ k : Fin 128, iblk0 V c 0 t (ix2 a k) = V c main_v21 (ix2 (⟨t.val * 5000 + a.val, hr⟩ : Fin 50000) k) := fun k => by
    show V c main_v21 (((cfg0.win 0).blk t).view.emb (ix2 a k)) = _
    refine congrArg (V c main_v21) (funext fun ax => Fin.ext ?_)
    match ax with
    | ⟨0, _⟩ => show win0_0.index t (0 : Fin 2) * 5000 + 1 * a.val = t.val * 5000 + a.val; omega
    | ⟨1, _⟩ => show win0_0.index t (1 : Fin 2) * 128 + 1 * k.val = k.val; omega
  have b1 : ∀ k : Fin 128, iblk0 V c 1 t (ix2 a k) = V c main_arg0 (ix2 (⟨t.val * 5000 + a.val, hr⟩ : Fin 50000) k) := fun k => by
    show V c main_arg0 (((cfg0.win 1).blk t).view.emb (ix2 a k)) = _
    refine congrArg (V c main_arg0) (funext fun ax => Fin.ext ?_)
    match ax with
    | ⟨0, _⟩ => show win0_1.index t (0 : Fin 2) * 5000 + 1 * a.val = t.val * 5000 + a.val; omega
    | ⟨1, _⟩ => show win0_1.index t (1 : Fin 2) * 128 + 1 * k.val = k.val; omega
  have b2 : iblk0 V c 2 t (ix2 a (0 : Fin 1)) = V c main_v11 (ix2 (⟨t.val * 5000 + a.val, hr⟩ : Fin 50000) (0 : Fin 1)) := by
    show V c main_v11 (((cfg0.win 2).blk t).view.emb (ix2 a (0 : Fin 1))) = _
    refine congrArg (V c main_v11) (funext fun ax => Fin.ext ?_)
    match ax with
    | ⟨0, _⟩ => show win0_2.index t (0 : Fin 2) * 5000 + 1 * a.val = t.val * 5000 + a.val; omega
    | ⟨1, _⟩ => show win0_2.index t (1 : Fin 2) * 1 + 1 * (0 : Fin 1).val = (0 : Fin 1).val; omega
  have b3 : ∀ k : Fin 128, iblk0 V c 3 t (ix2 k q) = V c main_arg3 (ix2 k q) := fun k => by
    show V c main_arg3 (((cfg0.win 3).blk t).view.emb (ix2 k q)) = _
    refine congrArg (V c main_arg3) (funext fun ax => Fin.ext ?_)
    match ax with
    | ⟨0, _⟩ => show win0_3.index t (0 : Fin 2) * 128 + 1 * k.val = k.val; omega
    | ⟨1, _⟩ => show win0_3.index t (1 : Fin 2) * 128 + 1 * q.val = q.val; omega
  have b4 : ∀ k : Fin 128, iblk0 V c 4 t (ix2 k q) = V c main_arg4 (ix2 k q) := fun k => by
    show V c main_arg4 (((cfg0.win 4).blk t).view.emb (ix2 k q)) = _
    refine congrArg (V c main_arg4) (funext fun ax => Fin.ext ?_)
    match ax with
    | ⟨0, _⟩ => show win0_4.index t (0 : Fin 2) * 128 + 1 * k.val = k.val; omega
    | ⟨1, _⟩ => show win0_4.index t (1 : Fin 2) * 128 + 1 * q.val = q.val; omega
  have b5 : iblk0 V c 5 t (ix2 (0 : Fin 1) q) = V c main_v22 (ix2 (0 : Fin 1) q) := by
    show V c main_v22 (((cfg0.win 5).blk t).view.emb (ix2 (0 : Fin 1) q)) = _
    refine congrArg (V c main_v22) (funext fun ax => Fin.ext ?_)
    match ax with
    | ⟨0, _⟩ => show win0_5.index t (0 : Fin 2) * 1 + 1 * (0 : Fin 1).val = (0 : Fin 1).val; omega
    | ⟨1, _⟩ => show win0_5.index t (1 : Fin 2) * 128 + 1 * q.val = q.val; omega
  simp only [b0, b1, b2, b3, b4, b5]

/-- An index of the array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- The ten row blocks tile the array: the row r lies in the block of the point r / 5000, and every point writes back. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, -, -, -, -, -, i60, i61⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the layer of the six arrays the region finds, entry by entry. -/
theorem final0 (c : Dev nD) :
    (dat0 (F := Ideal) V c).arrAt 6 cfg0.N
      = layerOut (N := 50000) (K := 128) (H := 128) (V c main_v21) (V c main_arg0) (V c main_v11) (V c main_arg3) (V c main_arg4) (V c main_v22) :=
  (dat0 V c).arrAt_eq_of_cover 6 _ (fun t _ => flushed_eq V c t) cover

end Cert.Sage.Region0

end
-- ==== Proof.Region1.lean ====
import proofs.«146102_j22763326669149_2_alg».proof.Proof.Gen.KernelIdeal.Frame
import proofs.«146102_j22763326669149_2_alg».proof.Proof.Net
import proofs.«146102_j22763326669149_2_alg».proof.Proof.LayerBlock

set_option maxRecDepth 16384

noncomputable section

namespace Cert.Sage.Region1

open Idealize.ShloMosaic Idealize.ShloMosaic.TcCoe Idealize.ShloMosaic.ValueIdx Cert.KernelIdeal Cert.KernelIdeal.Gen Cert.Sage Cert.Sage.Block

variable (V : (c : Dev nD) → (b : Ref sig .tc) → Buf (Elt Ideal) ((c : Thread nD τ).loc b))

/-- The body's accesses start at the origin of their buffers. -/
theorem hz : (![0, 0] : Fin 2 → Nat) = fun _ => 0 := funext fun a => by fin_cases a <;> rfl

/-- The block indices over the grid: the node-tiled windows sit at the point's own row block, the weights and the bias
    at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the layer of the six arrays as the region finds them: the entry (a, q) of the
    block is the entry (5000 t + a, q) of the array, whose row of neighbour sums, own row and reciprocal degree are the
    rows a of the three node-tiled blocks, the weights and the bias being whole. -/
theorem flushed_eq (c : Dev nD) (t : Fin cfg1.N) :
    (dat1 (F := Ideal) V c).flushed 6 t = ((cfg1.win 6).blk t).view.read (Elt Ideal)
      (layerOut (N := 50000) (K := 128) (H := 128) (V c main_v34) (V c main_v23) (V c main_v11) (V c main_arg6) (V c main_arg7) (V c main_v35)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨a, q, rfl⟩ : ∃ (a : Fin 5000) (q : Fin 128), j = ix2 a q := ⟨j 0, j 1, eq_ix2 j⟩
  show k1_pay1 (F := Ideal) (iblk1 V c 0 t) (iblk1 V c 2 t) (iblk1 V c 1 t) (iblk1 V c 3 t) (iblk1 V c 4 t) (iblk1 V c 5 t) (ix2 a q)
    = layerOut (N := 50000) (K := 128) (H := 128) (V c main_v34) (V c main_v23) (V c main_v11) (V c main_arg6) (V c main_arg7) (V c main_v35)
        (((cfg1.win 6).blk t).view.emb (ix2 a q))
  refine (k1_pay1_apply (iblk1 V c 0 t) (iblk1 V c 2 t) (iblk1 V c 1 t) (iblk1 V c 3 t) (iblk1 V c 4 t) (iblk1 V c 5 t) a q).trans ?_
  obtain ⟨i00, i01, i10, i11, i20, i21, i30, i31, i40, i41, i50, i51, i60, i61⟩ := idx_facts t
  have ht : t.val < 10 := lt_of_lt_of_eq t.isLt N_1
  have ha : a.val < 5000 := a.isLt
  have hr : t.val * 5000 + a.val < 50000 := by omega
  have e6 : ((cfg1.win 6).blk t).view.emb (ix2 a q) = ix2 (⟨t.val * 5000 + a.val, hr⟩ : Fin 50000) q :=
    funext fun ax => Fin.ext (by
      match ax with
      | ⟨0, _⟩ => show win1_6.index t (0 : Fin 2) * 5000 + 1 * a.val = t.val * 5000 + a.val; omega
      | ⟨1, _⟩ => show win1_6.index t (1 : Fin 2) * 128 + 1 * q.val = q.val; omega)
  rw [e6, layerOut_apply]
  have b0 : ∀ k : Fin 128, iblk1 V c 0 t (ix2 a k) = V c main_v34 (ix2 (⟨t.val * 5000 + a.val, hr⟩ : Fin 50000) k) := fun k => by
    show V c main_v34 (((cfg1.win 0).blk t).view.emb (ix2 a k)) = _
    refine congrArg (V c main_v34) (funext fun ax => Fin.ext ?_)
    match ax with
    | ⟨0, _⟩ => show win1_0.index t (0 : Fin 2) * 5000 + 1 * a.val = t.val * 5000 + a.val; omega
    | ⟨1, _⟩ => show win1_0.index t (1 : Fin 2) * 128 + 1 * k.val = k.val; omega
  have b1 : ∀ k : Fin 128, iblk1 V c 1 t (ix2 a k) = V c main_v23 (ix2 (⟨t.val * 5000 + a.val, hr⟩ : Fin 50000) k) := fun k => by
    show V c main_v23 (((cfg1.win 1).blk t).view.emb (ix2 a k)) = _
    refine congrArg (V c main_v23) (funext fun ax => Fin.ext ?_)
    match ax with
    | ⟨0, _⟩ => show win1_1.index t (0 : Fin 2) * 5000 + 1 * a.val = t.val * 5000 + a.val; omega
    | ⟨1, _⟩ => show win1_1.index t (1 : Fin 2) * 128 + 1 * k.val = k.val; omega
  have b2 : iblk1 V c 2 t (ix2 a (0 : Fin 1)) = V c main_v11 (ix2 (⟨t.val * 5000 + a.val, hr⟩ : Fin 50000) (0 : Fin 1)) := by
    show V c main_v11 (((cfg1.win 2).blk t).view.emb (ix2 a (0 : Fin 1))) = _
    refine congrArg (V c main_v11) (funext fun ax => Fin.ext ?_)
    match ax with
    | ⟨0, _⟩ => show win1_2.index t (0 : Fin 2) * 5000 + 1 * a.val = t.val * 5000 + a.val; omega
    | ⟨1, _⟩ => show win1_2.index t (1 : Fin 2) * 1 + 1 * (0 : Fin 1).val = (0 : Fin 1).val; omega
  have b3 : ∀ k : Fin 128, iblk1 V c 3 t (ix2 k q) = V c main_arg6 (ix2 k q) := fun k => by
    show V c main_arg6 (((cfg1.win 3).blk t).view.emb (ix2 k q)) = _
    refine congrArg (V c main_arg6) (funext fun ax => Fin.ext ?_)
    match ax with
    | ⟨0, _⟩ => show win1_3.index t (0 : Fin 2) * 128 + 1 * k.val = k.val; omega
    | ⟨1, _⟩ => show win1_3.index t (1 : Fin 2) * 128 + 1 * q.val = q.val; omega
  have b4 : ∀ k : Fin 128, iblk1 V c 4 t (ix2 k q) = V c main_arg7 (ix2 k q) := fun k => by
    show V c main_arg7 (((cfg1.win 4).blk t).view.emb (ix2 k q)) = _
    refine congrArg (V c main_arg7) (funext fun ax => Fin.ext ?_)
    match ax with
    | ⟨0, _⟩ => show win1_4.index t (0 : Fin 2) * 128 + 1 * k.val = k.val; omega
    | ⟨1, _⟩ => show win1_4.index t (1 : Fin 2) * 128 + 1 * q.val = q.val; omega
  have b5 : iblk1 V c 5 t (ix2 (0 : Fin 1) q) = V c main_v35 (ix2 (0 : Fin 1) q) := by
    show V c main_v35 (((cfg1.win 5).blk t).view.emb (ix2 (0 : Fin 1) q)) = _
    refine congrArg (V c main_v35) (funext fun ax => Fin.ext ?_)
    match ax with
    | ⟨0, _⟩ => show win1_5.index t (0 : Fin 2) * 1 + 1 * (0 : Fin 1).val = (0 : Fin 1).val; omega
    | ⟨1, _⟩ => show win1_5.index t (1 : Fin 2) * 128 + 1 * q.val = q.val; omega
  simp only [b0, b1, b2, b3, b4, b5]

/-- An index of the array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v36).slice (win1_6.rect t)).set ↔ _
  rw [View.set_slice_whole, Rect.mem_set_unit]
  exact Iff.rfl

/-- The ten row blocks tile the array: the row r lies in the block of the point r / 5000, and every point writes back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, -, -, -, -, i60, i61⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region: the layer of the six arrays the region finds, entry by entry. -/
theorem final1 (c : Dev nD) :
    (dat1 (F := Ideal) V c).arrAt 6 cfg1.N
      = layerOut (N := 50000) (K := 128) (H := 128) (V c main_v34) (V c main_v23) (V c main_v11) (V c main_arg6) (V c main_arg7) (V c main_v35) :=
  (dat1 V c).arrAt_eq_of_cover 6 _ (fun t _ => flushed_eq V c t) cover

end Cert.Sage.Region1

end
-- ==== Proof.Region2.lean ====
import proofs.«146102_j22763326669149_2_alg».proof.Proof.Gen.KernelIdeal.Frame
import proofs.«146102_j22763326669149_2_alg».proof.Proof.Net
import proofs.«146102_j22763326669149_2_alg».proof.Proof.LayerBlock

set_option maxRecDepth 16384

noncomputable section

namespace Cert.Sage.Region2

open Idealize.ShloMosaic Idealize.ShloMosaic.TcCoe Idealize.ShloMosaic.ValueIdx Cert.KernelIdeal Cert.KernelIdeal.Gen Cert.Sage Cert.Sage.Block

variable (V : (c : Dev nD) → (b : Ref sig .tc) → Buf (Elt Ideal) ((c : Thread nD τ).loc b))

/-- The body's accesses start at the origin of their buffers. -/
theorem hz : (![0, 0] : Fin 2 → Nat) = fun _ => 0 := funext fun a => by fin_cases a <;> rfl

/-- The block indices over the grid: the node-tiled windows sit at the point's own row block, the weights and the bias
    at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the layer of the six arrays as the region finds them: the entry (a, q) of the
    block is the entry (5000 t + a, q) of the array, whose row of neighbour sums, own row and reciprocal degree are the
    rows a of the three node-tiled blocks, the weights and the bias being whole. -/
theorem flushed_eq (c : Dev nD) (t : Fin cfg2.N) :
    (dat2 (F := Ideal) V c).flushed 6 t = ((cfg2.win 6).blk t).view.read (Elt Ideal)
      (layerOut (N := 50000) (K := 128) (H := 128) (V c main_v47) (V c main_v36) (V c main_v11) (V c main_arg9) (V c main_arg10) (V c main_v48)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨a, q, rfl⟩ : ∃ (a : Fin 5000) (q : Fin 128), j = ix2 a q := ⟨j 0, j 1, eq_ix2 j⟩
  show k2_pay1 (F := Ideal) (iblk2 V c 0 t) (iblk2 V c 2 t) (iblk2 V c 1 t) (iblk2 V c 3 t) (iblk2 V c 4 t) (iblk2 V c 5 t) (ix2 a q)
    = layerOut (N := 50000) (K := 128) (H := 128) (V c main_v47) (V c main_v36) (V c main_v11) (V c main_arg9) (V c main_arg10) (V c main_v48)
        (((cfg2.win 6).blk t).view.emb (ix2 a q))
  refine (k2_pay1_apply (iblk2 V c 0 t) (iblk2 V c 2 t) (iblk2 V c 1 t) (iblk2 V c 3 t) (iblk2 V c 4 t) (iblk2 V c 5 t) a q).trans ?_
  obtain ⟨i00, i01, i10, i11, i20, i21, i30, i31, i40, i41, i50, i51, i60, i61⟩ := idx_facts t
  have ht : t.val < 10 := lt_of_lt_of_eq t.isLt N_2
  have ha : a.val < 5000 := a.isLt
  have hr : t.val * 5000 + a.val < 50000 := by omega
  have e6 : ((cfg2.win 6).blk t).view.emb (ix2 a q) = ix2 (⟨t.val * 5000 + a.val, hr⟩ : Fin 50000) q :=
    funext fun ax => Fin.ext (by
      match ax with
      | ⟨0, _⟩ => show win2_6.index t (0 : Fin 2) * 5000 + 1 * a.val = t.val * 5000 + a.val; omega
      | ⟨1, _⟩ => show win2_6.index t (1 : Fin 2) * 128 + 1 * q.val = q.val; omega)
  rw [e6, layerOut_apply]
  have b0 : ∀ k : Fin 128, iblk2 V c 0 t (ix2 a k) = V c main_v47 (ix2 (⟨t.val * 5000 + a.val, hr⟩ : Fin 50000) k) := fun k => by
    show V c main_v47 (((cfg2.win 0).blk t).view.emb (ix2 a k)) = _
    refine congrArg (V c main_v47) (funext fun ax => Fin.ext ?_)
    match ax with
    | ⟨0, _⟩ => show win2_0.index t (0 : Fin 2) * 5000 + 1 * a.val = t.val * 5000 + a.val; omega
    | ⟨1, _⟩ => show win2_0.index t (1 : Fin 2) * 128 + 1 * k.val = k.val; omega
  have b1 : ∀ k : Fin 128, iblk2 V c 1 t (ix2 a k) = V c main_v36 (ix2 (⟨t.val * 5000 + a.val, hr⟩ : Fin 50000) k) := fun k => by
    show V c main_v36 (((cfg2.win 1).blk t).view.emb (ix2 a k)) = _
    refine congrArg (V c main_v36) (funext fun ax => Fin.ext ?_)
    match ax with
    | ⟨0, _⟩ => show win2_1.index t (0 : Fin 2) * 5000 + 1 * a.val = t.val * 5000 + a.val; omega
    | ⟨1, _⟩ => show win2_1.index t (1 : Fin 2) * 128 + 1 * k.val = k.val; omega
  have b2 : iblk2 V c 2 t (ix2 a (0 : Fin 1)) = V c main_v11 (ix2 (⟨t.val * 5000 + a.val, hr⟩ : Fin 50000) (0 : Fin 1)) := by
    show V c main_v11 (((cfg2.win 2).blk t).view.emb (ix2 a (0 : Fin 1))) = _
    refine congrArg (V c main_v11) (funext fun ax => Fin.ext ?_)
    match ax with
    | ⟨0, _⟩ => show win2_2.index t (0 : Fin 2) * 5000 + 1 * a.val = t.val * 5000 + a.val; omega
    | ⟨1, _⟩ => show win2_2.index t (1 : Fin 2) * 1 + 1 * (0 : Fin 1).val = (0 : Fin 1).val; omega
  have b3 : ∀ k : Fin 128, iblk2 V c 3 t (ix2 k q) = V c main_arg9 (ix2 k q) := fun k => by
    show V c main_arg9 (((cfg2.win 3).blk t).view.emb (ix2 k q)) = _
    refine congrArg (V c main_arg9) (funext fun ax => Fin.ext ?_)
    match ax with
    | ⟨0, _⟩ => show win2_3.index t (0 : Fin 2) * 128 + 1 * k.val = k.val; omega
    | ⟨1, _⟩ => show win2_3.index t (1 : Fin 2) * 128 + 1 * q.val = q.val; omega
  have b4 : ∀ k : Fin 128, iblk2 V c 4 t (ix2 k q) = V c main_arg10 (ix2 k q) := fun k => by
    show V c main_arg10 (((cfg2.win 4).blk t).view.emb (ix2 k q)) = _
    refine congrArg (V c main_arg10) (funext fun ax => Fin.ext ?_)
    match ax with
    | ⟨0, _⟩ => show win2_4.index t (0 : Fin 2) * 128 + 1 * k.val = k.val; omega
    | ⟨1, _⟩ => show win2_4.index t (1 : Fin 2) * 128 + 1 * q.val = q.val; omega
  have b5 : iblk2 V c 5 t (ix2 (0 : Fin 1) q) = V c main_v48 (ix2 (0 : Fin 1) q) := by
    show V c main_v48 (((cfg2.win 5).blk t).view.emb (ix2 (0 : Fin 1) q)) = _
    refine congrArg (V c main_v48) (funext fun ax => Fin.ext ?_)
    match ax with
    | ⟨0, _⟩ => show win2_5.index t (0 : Fin 2) * 1 + 1 * (0 : Fin 1).val = (0 : Fin 1).val; omega
    | ⟨1, _⟩ => show win2_5.index t (1 : Fin 2) * 128 + 1 * q.val = q.val; omega
  simp only [b0, b1, b2, b3, b4, b5]

/-- An index of the array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v49).slice (win2_6.rect t)).set ↔ _
  rw [View.set_slice_whole, Rect.mem_set_unit]
  exact Iff.rfl

/-- The ten row blocks tile the array: the row r lies in the block of the point r / 5000, and every point writes back. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, -, -, -, -, -, -, i60, i61⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region: the layer of the six arrays the region finds, entry by entry. -/
theorem final2 (c : Dev nD) :
    (dat2 (F := Ideal) V c).arrAt 6 cfg2.N
      = layerOut (N := 50000) (K := 128) (H := 128) (V c main_v47) (V c main_v36) (V c main_v11) (V c main_arg9) (V c main_arg10) (V c main_v48) :=
  (dat2 V c).arrAt_eq_of_cover 6 _ (fun t _ => flushed_eq V c t) cover

end Cert.Sage.Region2

end
-- ==== Proof.Region3.lean ====
import proofs.«146102_j22763326669149_2_alg».proof.Proof.Gen.KernelIdeal.Frame
import proofs.«146102_j22763326669149_2_alg».proof.Proof.Net
import proofs.«146102_j22763326669149_2_alg».proof.Proof.LayerBlock

set_option maxRecDepth 16384

noncomputable section

namespace Cert.Sage.Region3

open Idealize.ShloMosaic Idealize.ShloMosaic.TcCoe Idealize.ShloMosaic.ValueIdx Cert.KernelIdeal Cert.KernelIdeal.Gen Cert.Sage Cert.Sage.Block

variable (V : (c : Dev nD) → (b : Ref sig .tc) → Buf (Elt Ideal) ((c : Thread nD τ).loc b))

/-- The body's accesses start at the origin of their buffers. -/
theorem hz : (![0, 0] : Fin 2 → Nat) = fun _ => 0 := funext fun a => by fin_cases a <;> rfl

/-- The block indices over the grid: the node-tiled windows sit at the point's own row block, the weights and the bias
    at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the layer of the six arrays as the region finds them: the entry (a, q) of the
    block is the entry (5000 t + a, q) of the array, whose row of neighbour sums, own row and reciprocal degree are the
    rows a of the three node-tiled blocks, the weights and the bias being whole. -/
theorem flushed_eq (c : Dev nD) (t : Fin cfg3.N) :
    (dat3 (F := Ideal) V c).flushed 6 t = ((cfg3.win 6).blk t).view.read (Elt Ideal)
      (layerOut (N := 50000) (K := 128) (H := 128) (V c main_v60) (V c main_v49) (V c main_v11) (V c main_arg12) (V c main_arg13) (V c main_v61)) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨a, q, rfl⟩ : ∃ (a : Fin 5000) (q : Fin 128), j = ix2 a q := ⟨j 0, j 1, eq_ix2 j⟩
  show k3_pay1 (F := Ideal) (iblk3 V c 0 t) (iblk3 V c 2 t) (iblk3 V c 1 t) (iblk3 V c 3 t) (iblk3 V c 4 t) (iblk3 V c 5 t) (ix2 a q)
    = layerOut (N := 50000) (K := 128) (H := 128) (V c main_v60) (V c main_v49) (V c main_v11) (V c main_arg12) (V c main_arg13) (V c main_v61)
        (((cfg3.win 6).blk t).view.emb (ix2 a q))
  refine (k3_pay1_apply (iblk3 V c 0 t) (iblk3 V c 2 t) (iblk3 V c 1 t) (iblk3 V c 3 t) (iblk3 V c 4 t) (iblk3 V c 5 t) a q).trans ?_
  obtain ⟨i00, i01, i10, i11, i20, i21, i30, i31, i40, i41, i50, i51, i60, i61⟩ := idx_facts t
  have ht : t.val < 10 := lt_of_lt_of_eq t.isLt N_3
  have ha : a.val < 5000 := a.isLt
  have hr : t.val * 5000 + a.val < 50000 := by omega
  have e6 : ((cfg3.win 6).blk t).view.emb (ix2 a q) = ix2 (⟨t.val * 5000 + a.val, hr⟩ : Fin 50000) q :=
    funext fun ax => Fin.ext (by
      match ax with
      | ⟨0, _⟩ => show win3_6.index t (0 : Fin 2) * 5000 + 1 * a.val = t.val * 5000 + a.val; omega
      | ⟨1, _⟩ => show win3_6.index t (1 : Fin 2) * 128 + 1 * q.val = q.val; omega)
  rw [e6, layerOut_apply]
  have b0 : ∀ k : Fin 128, iblk3 V c 0 t (ix2 a k) = V c main_v60 (ix2 (⟨t.val * 5000 + a.val, hr⟩ : Fin 50000) k) := fun k => by
    show V c main_v60 (((cfg3.win 0).blk t).view.emb (ix2 a k)) = _
    refine congrArg (V c main_v60) (funext fun ax => Fin.ext ?_)
    match ax with
    | ⟨0, _⟩ => show win3_0.index t (0 : Fin 2) * 5000 + 1 * a.val = t.val * 5000 + a.val; omega
    | ⟨1, _⟩ => show win3_0.index t (1 : Fin 2) * 128 + 1 * k.val = k.val; omega
  have b1 : ∀ k : Fin 128, iblk3 V c 1 t (ix2 a k) = V c main_v49 (ix2 (⟨t.val * 5000 + a.val, hr⟩ : Fin 50000) k) := fun k => by
    show V c main_v49 (((cfg3.win 1).blk t).view.emb (ix2 a k)) = _
    refine congrArg (V c main_v49) (funext fun ax => Fin.ext ?_)
    match ax with
    | ⟨0, _⟩ => show win3_1.index t (0 : Fin 2) * 5000 + 1 * a.val = t.val * 5000 + a.val; omega
    | ⟨1, _⟩ => show win3_1.index t (1 : Fin 2) * 128 + 1 * k.val = k.val; omega
  have b2 : iblk3 V c 2 t (ix2 a (0 : Fin 1)) = V c main_v11 (ix2 (⟨t.val * 5000 + a.val, hr⟩ : Fin 50000) (0 : Fin 1)) := by
    show V c main_v11 (((cfg3.win 2).blk t).view.emb (ix2 a (0 : Fin 1))) = _
    refine congrArg (V c main_v11) (funext fun ax => Fin.ext ?_)
    match ax with
    | ⟨0, _⟩ => show win3_2.index t (0 : Fin 2) * 5000 + 1 * a.val = t.val * 5000 + a.val; omega
    | ⟨1, _⟩ => show win3_2.index t (1 : Fin 2) * 1 + 1 * (0 : Fin 1).val = (0 : Fin 1).val; omega
  have b3 : ∀ k : Fin 128, iblk3 V c 3 t (ix2 k q) = V c main_arg12 (ix2 k q) := fun k => by
    show V c main_arg12 (((cfg3.win 3).blk t).view.emb (ix2 k q)) = _
    refine congrArg (V c main_arg12) (funext fun ax => Fin.ext ?_)
    match ax with
    | ⟨0, _⟩ => show win3_3.index t (0 : Fin 2) * 128 + 1 * k.val = k.val; omega
    | ⟨1, _⟩ => show win3_3.index t (1 : Fin 2) * 128 + 1 * q.val = q.val; omega
  have b4 : ∀ k : Fin 128, iblk3 V c 4 t (ix2 k q) = V c main_arg13 (ix2 k q) := fun k => by
    show V c main_arg13 (((cfg3.win 4).blk t).view.emb (ix2 k q)) = _
    refine congrArg (V c main_arg13) (funext fun ax => Fin.ext ?_)
    match ax with
    | ⟨0, _⟩ => show win3_4.index t (0 : Fin 2) * 128 + 1 * k.val = k.val; omega
    | ⟨1, _⟩ => show win3_4.index t (1 : Fin 2) * 128 + 1 * q.val = q.val; omega
  have b5 : iblk3 V c 5 t (ix2 (0 : Fin 1) q) = V c main_v61 (ix2 (0 : Fin 1) q) := by
    show V c main_v61 (((cfg3.win 5).blk t).view.emb (ix2 (0 : Fin 1) q)) = _
    refine congrArg (V c main_v61) (funext fun ax => Fin.ext ?_)
    match ax with
    | ⟨0, _⟩ => show win3_5.index t (0 : Fin 2) * 1 + 1 * (0 : Fin 1).val = (0 : Fin 1).val; omega
    | ⟨1, _⟩ => show win3_5.index t (1 : Fin 2) * 128 + 1 * q.val = q.val; omega
  simp only [b0, b1, b2, b3, b4, b5]

/-- An index of the array is in point t's block iff each coordinate is in the block's range on its axis. -/
theorem mem_blk (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v62).slice (win3_6.rect t)).set ↔ _
  rw [View.set_slice_whole, Rect.mem_set_unit]
  exact Iff.rfl

/-- The ten row blocks tile the array: the row r lies in the block of the point r / 5000, and every point writes back. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega) N_3.symm⟩, rfl⟩
  obtain ⟨-, -, -, -, -, -, -, -, -, -, -, -, i60, i61⟩ := idx_facts t
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output array after the region: the layer of the six arrays the region finds, entry by entry. -/
theorem final3 (c : Dev nD) :
    (dat3 (F := Ideal) V c).arrAt 6 cfg3.N
      = layerOut (N := 50000) (K := 128) (H := 128) (V c main_v60) (V c main_v49) (V c main_v11) (V c main_arg12) (V c main_arg13) (V c main_v61) :=
  (dat3 V c).arrAt_eq_of_cover 6 _ (fun t _ => flushed_eq V c t) cover

end Cert.Sage.Region3

end
-- ==== Proof.Region4.lean ====
import proofs.«146102_j22763326669149_2_alg».proof.Proof.Gen.KernelIdeal.Frame
import proofs.«146102_j22763326669149_2_alg».proof.Proof.Net
import proofs.«146102_j22763326669149_2_alg».proof.Proof.LayerBlock

set_option maxRecDepth 16384

noncomputable section

namespace Cert.Sage.Region4

open Idealize.ShloMosaic Idealize.ShloMosaic.TcCoe Idealize.ShloMosaic.ValueIdx Cert.KernelIdeal Cert.KernelIdeal.Gen Cert.Sage Cert.Sage.Block

variable (V : (c : Dev nD) → (b : Ref sig .tc) → Buf (Elt Ideal) ((c : Thread nD τ).loc b))

/-- The body's accesses start at the origin of their buffers. -/
theorem hz : (![0, 0] : Fin 2 → Nat) = fun _ => 0 := funext fun a => by fin_cases a <;> rfl

/-- The block indices over the grid: the node-tiled windows sit at the point's own row block, the weights and the bias
    at their one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point t writes back is block t of the layer of the six arrays as the region finds them: the entry (a, q) of the
    block is the entry (5000 t + a, q) of the array, whose row of neighbour sums, own row and reciprocal degree are the
    rows a of the three node-tiled blocks, the weights and the bias being whole. -/
theorem flushed_eq (c : Dev nD) (t : Fin cfg4.N) :
    (dat4 (F := Ideal) V c).flushed 6 t = ((cfg4.win 6).blk t).view.read (Elt Ideal)
      (layerOut (N := 50000) (K := 128) (H := 128) (V c main_v73) (V c main_v62) (V c main_v11) (V c main_arg15) (V c main_arg16) (V c main_v74)) := by
  show (cfg4.win 6).cut (grid4.coords t) ((dat4 V c).after 6 t) = _
  rw [after4_6]
  unfold out4_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨a, q, rfl⟩ : ∃ (a : Fin 5000) (q : Fin 128), j = ix2 a q := ⟨j 0, j 1, eq_ix2 j⟩
  show k4_pay1 (F := Ideal) (iblk4 V c 0 t) (iblk4 V c 2 t) (iblk4 V c 1 t) (iblk4 V c 3 t) (iblk4 V c 4 t) (iblk4 V c 5 t) (ix2 a q)
    = layerOut (N := 50000) (K := 128) (H := 128) (V c main_v73) (V c main_v62) (V c main_v11) (V c main_arg15) (V c main_arg16) (V c main_v74)
        (((cfg4.win 6).blk t).view.emb (ix2 a q))
  refine (k4_pay1_apply (iblk4 V c 0 t) (iblk4 V c 2 t) (iblk4 V c 1 t) (iblk4 V c 3 t) (iblk4 V c 4 t) (iblk4 V c 5 t) a q).trans ?_
  obtain ⟨i00, i01, i10, i11, i20, i21, i30, i31, i40, i41, i50, i51, i60, i61⟩ := idx_facts t
  have ht : t.val < 10 := lt_of_lt_of_eq t.isLt N_4
  have ha : a.val < 5000 := a.isLt
  have hr : t.val * 5000 + a.val < 50000 := by omega
  have e6 : ((cfg4.win 6).blk t).view.emb (ix2 a q) = ix2 (⟨t.val * 5000 + a.val, hr⟩ : Fin 50000) q :=
    funext fun ax => Fin.ext (by
      match ax with
      | ⟨0, _⟩ => show win4_6.index t (0 : Fin 2) * 5000 + 1 * a.val = t.val * 5000 + a.val; omega
      | ⟨1, _⟩ => show win4_6.index t (1 : Fin 2) * 128 + 1 * q.val = q.val; omega)
  rw [e6, layerOut_apply]
  have b0 : ∀ k : Fin 128, iblk4 V c 0 t (ix2 a k) = V c main_v73 (ix2 (⟨t.val * 5000 + a.val, hr⟩ : Fin 50000) k) := fun k => by
    show V c main_v73 (((cfg4.win 0).blk t).view.emb (ix2 a k)) = _
    refine congrArg (V c main_v73) (funext fun ax => Fin.ext ?_)
    match ax with
    | ⟨0, _⟩ => show win4_0.index t (0 : Fin 2) * 5000 + 1 * a.val = t.val * 5000 + a.val; omega
    | ⟨1, _⟩ => show win4_0.index t (1 : Fin 2) * 128 + 1 * k.val = k.val; omega
  have b1 : ∀ k : Fin 128, iblk4 V c 1 t (ix2 a k) = V c main_v62 (ix2 (⟨t.val * 5000 + a.val, hr⟩ : Fin 50000) k) := fun k => by
    show V c main_v62 (((cfg4.win 1).blk t).view.emb (ix2 a k)) = _
    refine congrArg (V c main_v62) (funext fun ax => Fin.ext ?_)
    match ax with
    | ⟨0, _⟩ => show win4_1.index t (0 : Fin 2) * 5000 + 1 * a.val = t.val * 5000 + a.val; omega
    | ⟨1, _⟩ => show win4_1.index t (1 : Fin 2) * 128 + 1 * k.val = k.val; omega
  have b2 : iblk4 V c 2 t (ix2 a (0 : Fin 1)) = V c main_v11 (ix2 (⟨t.val * 5000 + a.val, hr⟩ : Fin 50000) (0 : Fin 1)) := by
    show V c main_v11 (((cfg4.win 2).blk t).view.emb (ix2 a (0 : Fin 1))) = _
    refine congrArg (V c main_v11) (funext fun ax => Fin.ext ?_)
    match ax with
    | ⟨0, _⟩ => show win4_2.index t (0 : Fin 2) * 5000 + 1 * a.val = t.val * 5000 + a.val; omega
    | ⟨1, _⟩ => show win4_2.index t (1 : Fin 2) * 1 + 1 * (0 : Fin 1).val = (0 : Fin 1).val; omega
  have b3 : ∀ k : Fin 128, iblk4 V c 3 t (ix2 k q) = V c main_arg15 (ix2 k q) := fun k => by
    show V c main_arg15 (((cfg4.win 3).blk t).view.emb (ix2 k q)) = _
    refine congrArg (V c main_arg15) (funext fun ax => Fin.ext ?_)
    match ax with
    | ⟨0, _⟩ => show win4_3.index t (0 : Fin 2) * 128 + 1 * k.val = k.val; omega
    | ⟨1, _⟩ => show win4_3.index t (1 : Fin 2) * 128 + 1 * q.val = q.val; omega
  have b4 : ∀ k : Fin 128, iblk4 V c 4 t (ix2 k q) = V c main_arg16 (ix2 k q) := fun k => by
    show V c main_arg16 (((cfg4.win 4).blk t).view.emb (ix2 k q)) = _
    refine congrArg (V c main_arg16) (funext fun ax => Fin.ext ?_)
    match ax with
    | ⟨0, _⟩ => show win4_4.index t (0 : Fin 2) * 128 + 1 * k.val = k.val; omega
    | ⟨1, _⟩ => show win4_4.index t (1 : Fin 2) * 128 + 1 * q.val = q.val; omega
  have b5 : iblk4 V c 5 t (ix2 (0 : Fin 1) q) = V c main_v74 (ix2 (0 : Fin 1) q) := by
    show V c main_v74 (((cfg4.win 5).blk t).view.emb (ix2 (0 : Fin 1) q)) = _
    refine congrArg (V c main_v74) (funext fun ax => Fin.ext ?_)
    match ax with
    | ⟨0, _⟩ => show win4_5.index t (0 : Fin 2) * 1 + 1 * (0 : Fin 1).val = (0 : Fin 1).val; omega
    | ⟨1, _⟩ => show win4_5.index t (1 : Fin 2) * 128 + 1 * q.val = q.val; omega
  simp only [b0, b1, b2, b3, b4, b5]

/-- An index of the array is in point t's block iff each coordinate is in the block's range on its axis. -/
theorem mem_blk (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v75).slice (win4_6.rect t)).set ↔ _
  rw [View.set_slice_whole, Rect.mem_set_unit]
  exact Iff.rfl

/-- The ten row blocks tile the array: the row r lies in the block of the point r / 5000, and every point writes back. -/
theorem cover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega) N_4.symm⟩, rfl⟩
  obtain ⟨-, -, -, -, -, -, -, -, -, -, -, -, i60, i61⟩ := idx_facts t
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The output array after the region: the layer of the six arrays the region finds, entry by entry. -/
theorem final4 (c : Dev nD) :
    (dat4 (F := Ideal) V c).arrAt 6 cfg4.N
      = layerOut (N := 50000) (K := 128) (H := 128) (V c main_v73) (V c main_v62) (V c main_v11) (V c main_arg15) (V c main_arg16) (V c main_v74) :=
  (dat4 V c).arrAt_eq_of_cover 6 _ (fun t _ => flushed_eq V c t) cover

end Cert.Sage.Region4

end
-- ==== Proof.Fold.lean ====
/-
  The kernel program's run read as mathematics: what each layer's output array holds, as a function of the argument arrays.

  The program alternates host stretches and kernel regions. The generated frame proof names the buffer contents at every
  boundary between them. A host stretch is read at ANY float instance: the buffers it writes hold its operations' composed
  term of the buffers it reads, every other buffer what it held. A kernel region is read at the extended reals: its
  output array holds the graph layer of its six input arrays, every other buffer what it held. Chaining the two from the
  launch memory: the sources, targets and reciprocal degrees are fixed functions of the edge list all along, every
  argument array stays as launched, and the k-th region's output is the k-th layer h_k = layer(agg(h_{k-1}), h_{k-1}).
-/
import proofs.«146102_j22763326669149_2_alg».proof.Proof.KRun
import proofs.«146102_j22763326669149_2_alg».proof.Proof.FoldDefs
import proofs.«146102_j22763326669149_2_alg».proof.Proof.Region0
import proofs.«146102_j22763326669149_2_alg».proof.Proof.Region1
import proofs.«146102_j22763326669149_2_alg».proof.Proof.Region2
import proofs.«146102_j22763326669149_2_alg».proof.Proof.Region3
import proofs.«146102_j22763326669149_2_alg».proof.Proof.Region4
import Idealize.ShloMosaic.Lib.StableHlo.Run

set_option maxRecDepth 16384

noncomputable section

namespace Cert.Sage.Fold

open Cert.KernelIdeal Cert.KernelIdeal.Gen
open Idealize.ShloMosaic Idealize.ShloMosaic.TcCoe Idealize.SL.Sem Idealize.ShloMosaic.StableHlo

/-- The buffers every later segment still reads and none writes: the sources, the targets, the reciprocal degrees and the
    arguments. -/
abbrev live : List (Ref sig .tc) := [main_v1, main_v3, main_v11, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- The argument buffers. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

section AnyInstance

variable {F : FTy → Type} [FloatOps F]
variable (m : (ℓ : Loc nD τ sig) → Buf (Elt F) ℓ) (ρ : Dev nD → PrngReg) (c : Dev nD)

/-! ## Before the first region: everything from the launch memory -/

theorem W3_v1 : W3 (F := F) m ρ c (Proc.devRef .tc main_v1) = srcG (m ((c.tc : Thread nD τ).loc main_arg1)) := by
  after_results_simp; rfl
theorem W3_v3 : W3 (F := F) m ρ c (Proc.devRef .tc main_v3) = dstG (m ((c.tc : Thread nD τ).loc main_arg1)) := by
  after_results_simp; rfl
theorem W3_v11 : W3 (F := F) m ρ c (Proc.devRef .tc main_v11) = invG (m ((c.tc : Thread nD τ).loc main_arg1)) := by
  after_results_simp; rfl
theorem W3_v21 : W3 (F := F) m ρ c (Proc.devRef .tc main_v21) = aggG (m ((c.tc : Thread nD τ).loc main_arg1)) (m ((c.tc : Thread nD τ).loc main_arg0)) := by
  after_results_simp; rfl
theorem W3_v22 : W3 (F := F) m ρ c (Proc.devRef .tc main_v22) = rowG (m ((c.tc : Thread nD τ).loc main_arg5)) := by
  after_results_simp; rfl
set_option maxHeartbeats 4000000 in
/-- No host operation before the first region writes an argument. -/
theorem W3_arg : ∀ b ∈ args, W3 (F := F) m ρ c (Proc.devRef .tc b) = m ((c.tc : Thread nD τ).loc b) := by
  intro b hb
  simp only [args, List.mem_cons, List.mem_nil_iff, or_false] at hb
  rcases hb with rfl | rfl | rfl | rfl | rfl | rfl | rfl | rfl | rfl | rfl | rfl | rfl | rfl | rfl | rfl | rfl | rfl | rfl | rfl | rfl | rfl | rfl
  all_goals after_results_simp

/-! ## Through the first region and on: the live buffers stay put -/

set_option maxHeartbeats 4000000 in
/-- Region 0 writes only its output array: an input window's array ends as entered, every other buffer is untouched. -/
theorem keep4 : ∀ b ∈ live, W4 (F := F) m ρ c (Proc.devRef .tc b) = W3 m ρ c (Proc.devRef .tc b) := by
  intro b hb
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 1).trans (((dat0 (V3 m ρ) c).arrAt_in 1 rfl _).trans (A_eq0 (V3 m ρ) c 1))
    | exact (W4_arr m ρ c 2).trans (((dat0 (V3 m ρ) c).arrAt_in 2 rfl _).trans (A_eq0 (V3 m ρ) c 2))
    | exact (W4_arr m ρ c 3).trans (((dat0 (V3 m ρ) c).arrAt_in 3 rfl _).trans (A_eq0 (V3 m ρ) c 3))
    | exact (W4_arr m ρ c 4).trans (((dat0 (V3 m ρ) c).arrAt_in 4 rfl _).trans (A_eq0 (V3 m ρ) c 4))

/-! ### Before region 1: the neighbour sums of the previous output, the bias as a row -/

set_option maxHeartbeats 4000000 in
/-- The host stretch before region 1 writes none of the live buffers. -/
theorem keep5 : ∀ b ∈ live, W5 (F := F) m ρ c (Proc.devRef .tc b) = W3 m ρ c (Proc.devRef .tc b) := by
  intro b hb
  refine Eq.trans ?_ (keep4 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals after_results_simp
/-- Nor the previous region's output. -/
theorem W5_prev : W5 (F := F) m ρ c (Proc.devRef .tc main_v23) = W4 m ρ c (Proc.devRef .tc main_v23) := by
  after_results_simp
/-- The gathered, widened and re-added rows are the neighbour sums of the previous region's output. -/
theorem W5_agg : W5 (F := F) m ρ c (Proc.devRef .tc main_v34)
    = aggB (m ((c.tc : Thread nD τ).loc main_arg1)) (W4 m ρ c (Proc.devRef .tc main_v23)) := by
  after_results_simp
  rw [(keep4 m ρ c main_v1 (by decide)).trans (W3_v1 m ρ c), (keep4 m ρ c main_v3 (by decide)).trans (W3_v3 m ρ c)]
  rfl
/-- The layer's bias, reshaped to a row. -/
theorem W5_row : W5 (F := F) m ρ c (Proc.devRef .tc main_v35) = rowG (m ((c.tc : Thread nD τ).loc main_arg8)) := by
  after_results_simp
  rw [(keep4 m ρ c main_arg8 (by decide)).trans (W3_arg m ρ c main_arg8 (by decide))]
  rfl

set_option maxHeartbeats 4000000 in
/-- Region 1 writes only its output array: an input window's array ends as entered, every other buffer is untouched. -/
theorem keep6 : ∀ b ∈ live, W6 (F := F) m ρ c (Proc.devRef .tc b) = W3 m ρ c (Proc.devRef .tc b) := by
  intro b hb
  refine Eq.trans ?_ (keep5 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W6_of_ne m ρ c _ (by decide)
    | exact (W6_arr m ρ c 2).trans (((dat1 (V5 m ρ) c).arrAt_in 2 rfl _).trans (A_eq1 (V5 m ρ) c 2))
    | exact (W6_arr m ρ c 3).trans (((dat1 (V5 m ρ) c).arrAt_in 3 rfl _).trans (A_eq1 (V5 m ρ) c 3))
    | exact (W6_arr m ρ c 4).trans (((dat1 (V5 m ρ) c).arrAt_in 4 rfl _).trans (A_eq1 (V5 m ρ) c 4))

/-! ### Before region 2: the neighbour sums of the previous output, the bias as a row -/

set_option maxHeartbeats 4000000 in
/-- The host stretch before region 2 writes none of the live buffers. -/
theorem keep7 : ∀ b ∈ live, W7 (F := F) m ρ c (Proc.devRef .tc b) = W3 m ρ c (Proc.devRef .tc b) := by
  intro b hb
  refine Eq.trans ?_ (keep6 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals after_results_simp
/-- Nor the previous region's output. -/
theorem W7_prev : W7 (F := F) m ρ c (Proc.devRef .tc main_v36) = W6 m ρ c (Proc.devRef .tc main_v36) := by
  after_results_simp
/-- The gathered, widened and re-added rows are the neighbour sums of the previous region's output. -/
theorem W7_agg : W7 (F := F) m ρ c (Proc.devRef .tc main_v47)
    = aggB (m ((c.tc : Thread nD τ).loc main_arg1)) (W6 m ρ c (Proc.devRef .tc main_v36)) := by
  after_results_simp
  rw [(keep6 m ρ c main_v1 (by decide)).trans (W3_v1 m ρ c), (keep6 m ρ c main_v3 (by decide)).trans (W3_v3 m ρ c)]
  rfl
/-- The layer's bias, reshaped to a row. -/
theorem W7_row : W7 (F := F) m ρ c (Proc.devRef .tc main_v48) = rowG (m ((c.tc : Thread nD τ).loc main_arg11)) := by
  after_results_simp
  rw [(keep6 m ρ c main_arg11 (by decide)).trans (W3_arg m ρ c main_arg11 (by decide))]
  rfl

set_option maxHeartbeats 4000000 in
/-- Region 2 writes only its output array: an input window's array ends as entered, every other buffer is untouched. -/
theorem keep8 : ∀ b ∈ live, W8 (F := F) m ρ c (Proc.devRef .tc b) = W3 m ρ c (Proc.devRef .tc b) := by
  intro b hb
  refine Eq.trans ?_ (keep7 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W8_of_ne m ρ c _ (by decide)
    | exact (W8_arr m ρ c 2).trans (((dat2 (V7 m ρ) c).arrAt_in 2 rfl _).trans (A_eq2 (V7 m ρ) c 2))
    | exact (W8_arr m ρ c 3).trans (((dat2 (V7 m ρ) c).arrAt_in 3 rfl _).trans (A_eq2 (V7 m ρ) c 3))
    | exact (W8_arr m ρ c 4).trans (((dat2 (V7 m ρ) c).arrAt_in 4 rfl _).trans (A_eq2 (V7 m ρ) c 4))

/-! ### Before region 3: the neighbour sums of the previous output, the bias as a row -/

set_option maxHeartbeats 4000000 in
/-- The host stretch before region 3 writes none of the live buffers. -/
theorem keep9 : ∀ b ∈ live, W9 (F := F) m ρ c (Proc.devRef .tc b) = W3 m ρ c (Proc.devRef .tc b) := by
  intro b hb
  refine Eq.trans ?_ (keep8 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals after_results_simp
/-- Nor the previous region's output. -/
theorem W9_prev : W9 (F := F) m ρ c (Proc.devRef .tc main_v49) = W8 m ρ c (Proc.devRef .tc main_v49) := by
  after_results_simp
/-- The gathered, widened and re-added rows are the neighbour sums of the previous region's output. -/
theorem W9_agg : W9 (F := F) m ρ c (Proc.devRef .tc main_v60)
    = aggB (m ((c.tc : Thread nD τ).loc main_arg1)) (W8 m ρ c (Proc.devRef .tc main_v49)) := by
  after_results_simp
  rw [(keep8 m ρ c main_v1 (by decide)).trans (W3_v1 m ρ c), (keep8 m ρ c main_v3 (by decide)).trans (W3_v3 m ρ c)]
  rfl
/-- The layer's bias, reshaped to a row. -/
theorem W9_row : W9 (F := F) m ρ c (Proc.devRef .tc main_v61) = rowG (m ((c.tc : Thread nD τ).loc main_arg14)) := by
  after_results_simp
  rw [(keep8 m ρ c main_arg14 (by decide)).trans (W3_arg m ρ c main_arg14 (by decide))]
  rfl

set_option maxHeartbeats 4000000 in
/-- Region 3 writes only its output array: an input window's array ends as entered, every other buffer is untouched. -/
theorem keep10 : ∀ b ∈ live, W10 (F := F) m ρ c (Proc.devRef .tc b) = W3 m ρ c (Proc.devRef .tc b) := by
  intro b hb
  refine Eq.trans ?_ (keep9 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W10_of_ne m ρ c _ (by decide)
    | exact (W10_arr m ρ c 2).trans (((dat3 (V9 m ρ) c).arrAt_in 2 rfl _).trans (A_eq3 (V9 m ρ) c 2))
    | exact (W10_arr m ρ c 3).trans (((dat3 (V9 m ρ) c).arrAt_in 3 rfl _).trans (A_eq3 (V9 m ρ) c 3))
    | exact (W10_arr m ρ c 4).trans (((dat3 (V9 m ρ) c).arrAt_in 4 rfl _).trans (A_eq3 (V9 m ρ) c 4))

/-! ### Before region 4: the neighbour sums of the previous output, the bias as a row -/

set_option maxHeartbeats 4000000 in
/-- The host stretch before region 4 writes none of the live buffers. -/
theorem keep11 : ∀ b ∈ live, W11 (F := F) m ρ c (Proc.devRef .tc b) = W3 m ρ c (Proc.devRef .tc b) := by
  intro b hb
  refine Eq.trans ?_ (keep10 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals after_results_simp
/-- Nor the previous region's output. -/
theorem W11_prev : W11 (F := F) m ρ c (Proc.devRef .tc main_v62) = W10 m ρ c (Proc.devRef .tc main_v62) := by
  after_results_simp
/-- The gathered, widened and re-added rows are the neighbour sums of the previous region's output. -/
theorem W11_agg : W11 (F := F) m ρ c (Proc.devRef .tc main_v73)
    = aggB (m ((c.tc : Thread nD τ).loc main_arg1)) (W10 m ρ c (Proc.devRef .tc main_v62)) := by
  after_results_simp
  rw [(keep10 m ρ c main_v1 (by decide)).trans (W3_v1 m ρ c), (keep10 m ρ c main_v3 (by decide)).trans (W3_v3 m ρ c)]
  rfl
/-- The layer's bias, reshaped to a row. -/
theorem W11_row : W11 (F := F) m ρ c (Proc.devRef .tc main_v74) = rowG (m ((c.tc : Thread nD τ).loc main_arg17)) := by
  after_results_simp
  rw [(keep10 m ρ c main_arg17 (by decide)).trans (W3_arg m ρ c main_arg17 (by decide))]
  rfl

set_option maxHeartbeats 4000000 in
/-- Region 4 writes only its output array: an input window's array ends as entered, every other buffer is untouched. -/
theorem keep12 : ∀ b ∈ live, W12 (F := F) m ρ c (Proc.devRef .tc b) = W3 m ρ c (Proc.devRef .tc b) := by
  intro b hb
  refine Eq.trans ?_ (keep11 m ρ c b hb)
  simp only [live, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl
  all_goals first
    | exact W12_of_ne m ρ c _ (by decide)
    | exact (W12_arr m ρ c 2).trans (((dat4 (V11 m ρ) c).arrAt_in 2 rfl _).trans (A_eq4 (V11 m ρ) c 2))
    | exact (W12_arr m ρ c 3).trans (((dat4 (V11 m ρ) c).arrAt_in 3 rfl _).trans (A_eq4 (V11 m ρ) c 3))
    | exact (W12_arr m ρ c 4).trans (((dat4 (V11 m ρ) c).arrAt_in 4 rfl _).trans (A_eq4 (V11 m ρ) c 4))

end AnyInstance

end Cert.Sage.Fold

end
-- ==== Proof.Region5.lean ====
/-
  The read-out region's closed form.

  The last region of the network runs once, on whole arrays: it loads the pooled features g [128,128], the hidden weights
  W1 [128,128], the hidden bias row b1 [1,128], the output weight column W2 [128,1] and the output bias b2 [1,1], and stores
      out(r) = logistic( Σ_k max(Σ_j g(r,j) · W1(j,k) + b1(k), 0) · W2(k) + b2 )
  into its [128,1] output. On the extended reals the roundings between formats are the identity and a product accumulated
  into zero is its plain sum, so the body's result, entry by entry, is the read-out of the five blocks. Every window's block
  is its whole array at block index (0, 0), so the blocks are the arrays as the region finds them, the one grid point writes
  back the whole output, and the output array after the region is the read-out of the five arrays.
-/
import proofs.«146102_j22763326669149_2_alg».proof.Proof.Gen.KernelIdeal.Frame
import proofs.«146102_j22763326669149_2_alg».proof.Proof.Net
import Idealize.ShloMosaic.Lib.Pipeline.Value
import Idealize.ShloMosaic.Lib.ValueIdx
import Idealize.ShloMosaic.PureOps.Ideal.Laws

noncomputable section

open scoped BigOperators

namespace Cert.Sage.Region5

open Cert.KernelIdeal Cert.KernelIdeal.Gen Idealize.ShloMosaic Idealize.ShloMosaic.TcCoe Idealize.ShloMosaic.ValueIdx

/-! ## The two block products at an entry

A product's operand indices at an output index and a contraction index, coordinate by coordinate: the left operand is
read at (output row, contracted coordinate), the right at (contracted coordinate, output column). -/

theorem hidden_lhs0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
theorem hidden_lhs1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
theorem hidden_rhs0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
theorem hidden_rhs1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

theorem output_lhs0 (i : S128x1.Idx) (q : dot_S128x128_S128x1_S128x1_1_0_0_1_n_n.contr.Idx) : (dot_S128x128_S128x1_S128x1_1_0_0_1_n_n.lhsIdx i q 0).val = (i 0).val := by
  unfold DotDims.lhsIdx
  rw [dif_neg (show ¬(0 : Fin S128x128.rank) ∈ dot_S128x128_S128x1_S128x1_1_0_0_1_n_n.lhsBatch by decide),
    dif_pos (show (0 : Fin S128x128.rank) ∈ dot_S128x128_S128x1_S128x1_1_0_0_1_n_n.lhsNonContracting by decide)]
  rfl
theorem output_lhs1 (i : S128x1.Idx) (q : dot_S128x128_S128x1_S128x1_1_0_0_1_n_n.contr.Idx) : (dot_S128x128_S128x1_S128x1_1_0_0_1_n_n.lhsIdx i q 1).val = (q ⟨0, by decide⟩).val :=
  dot_S128x128_S128x1_S128x1_1_0_0_1_n_n.lhsIdx_val_of_single rfl i q
theorem output_rhs0 (i : S128x1.Idx) (q : dot_S128x128_S128x1_S128x1_1_0_0_1_n_n.contr.Idx) : (dot_S128x128_S128x1_S128x1_1_0_0_1_n_n.rhsIdx i q 0).val = (q ⟨0, by decide⟩).val :=
  dot_S128x128_S128x1_S128x1_1_0_0_1_n_n.rhsIdx_val_of_single rfl i q
theorem output_rhs1 (i : S128x1.Idx) (q : dot_S128x128_S128x1_S128x1_1_0_0_1_n_n.contr.Idx) : (dot_S128x128_S128x1_S128x1_1_0_0_1_n_n.rhsIdx i q 1).val = (i 1).val := by
  unfold DotDims.rhsIdx
  rw [dif_neg (show ¬(1 : Fin S128x1.rank) ∈ dot_S128x128_S128x1_S128x1_1_0_0_1_n_n.rhsBatch by decide),
    dif_pos (show (1 : Fin S128x1.rank) ∈ dot_S128x128_S128x1_S128x1_1_0_0_1_n_n.rhsNonContracting by decide)]
  rfl

/-- The hidden product, a [128,128] by [128,128] product accumulated into zero, at the entry (r, k): the sum over the
    contracted coordinate j of left (r, j) times right (j, k). -/
theorem hiddenProduct_apply (a b : FVec Ideal S128x128 .bf16) (r k : Fin 128) :
    matmul dot_S128x128_S128x128_S128x128_1_0_0_1_n_n none a b (constant (F := Ideal) S128x128 .f32 0x00000000#32) (ix2 r k)
      = ∑ j : Fin 128, a (ix2 r j) * b (ix2 j k) := by
  simp only [matmul]
  rw [Ideal.matmul_constant_zero_apply, ← Equiv.sum_comp (contrEquiv1 dot_S128x128_S128x128_S128x128_1_0_0_1_n_n 128 rfl rfl).symm]
  refine Finset.sum_congr rfl fun j _ => ?_
  have hj := contrEquiv1_symm_val dot_S128x128_S128x128_S128x128_1_0_0_1_n_n 128 rfl rfl j
  have el : dot_S128x128_S128x128_S128x128_1_0_0_1_n_n.lhsIdx (ix2 r k) ((contrEquiv1 dot_S128x128_S128x128_S128x128_1_0_0_1_n_n 128 rfl rfl).symm j) = ix2 r j :=
    funext fun d => Fin.ext (by
      match d with
      | ⟨0, _⟩ => exact hidden_lhs0 _ _
      | ⟨1, _⟩ => exact (hidden_lhs1 _ _).trans hj)
  have er : dot_S128x128_S128x128_S128x128_1_0_0_1_n_n.rhsIdx (ix2 r k) ((contrEquiv1 dot_S128x128_S128x128_S128x128_1_0_0_1_n_n 128 rfl rfl).symm j) = ix2 j k :=
    funext fun d => Fin.ext (by
      match d with
      | ⟨0, _⟩ => exact (hidden_rhs0 _ _).trans hj
      | ⟨1, _⟩ => exact hidden_rhs1 _ _)
  rw [el, er]

/-- The output product, a [128,128] by [128,1] product accumulated into zero, at the entry (r, z): the sum over the
    contracted coordinate k of left (r, k) times right (k, z). -/
theorem outputProduct_apply (a : FVec Ideal S128x128 .bf16) (b : FVec Ideal S128x1 .bf16) (r : Fin 128) (z : Fin 1) :
    matmul dot_S128x128_S128x1_S128x1_1_0_0_1_n_n none a b (constant (F := Ideal) S128x1 .f32 0x00000000#32) (ix2 r z)
      = ∑ k : Fin 128, a (ix2 r k) * b (ix2 k z) := by
  simp only [matmul]
  rw [Ideal.matmul_constant_zero_apply, ← Equiv.sum_comp (contrEquiv1 dot_S128x128_S128x1_S128x1_1_0_0_1_n_n 128 rfl rfl).symm]
  refine Finset.sum_congr rfl fun k _ => ?_
  have hk := contrEquiv1_symm_val dot_S128x128_S128x1_S128x1_1_0_0_1_n_n 128 rfl rfl k
  have el : dot_S128x128_S128x1_S128x1_1_0_0_1_n_n.lhsIdx (ix2 r z) ((contrEquiv1 dot_S128x128_S128x1_S128x1_1_0_0_1_n_n 128 rfl rfl).symm k) = ix2 r k :=
    funext fun d => Fin.ext (by
      match d with
      | ⟨0, _⟩ => exact output_lhs0 _ _
      | ⟨1, _⟩ => exact (output_lhs1 _ _).trans hk)
  have er : dot_S128x128_S128x1_S128x1_1_0_0_1_n_n.rhsIdx (ix2 r z) ((contrEquiv1 dot_S128x128_S128x1_S128x1_1_0_0_1_n_n 128 rfl rfl).symm k) = ix2 k z :=
    funext fun d => Fin.ext (by
      match d with
      | ⟨0, _⟩ => exact (output_rhs0 _ _).trans hk
      | ⟨1, _⟩ => exact output_rhs1 _ _)
  rw [el, er]

/-! ## The two bias broadcasts at an entry -/

/-- The hidden bias row [1,128] spread over 128 rows reads its column's entry. -/
theorem biasRow_apply (x : FVec Ideal S1x128 .f32) (hc : S1x128.ShapeCasts S1x128) (hb : S1x128.Broadcasts S128x128)
    (r k : Fin 128) : broadcastTo S128x128 (shapeCast S1x128 x hc) hb (ix2 r k) = x (ix2 (0 : Fin 1) k) := by
  rw [shapeCast_self]
  exact broadcastTo_apply x hb (ix2 r k) (ix2 (0 : Fin 1) k) (fun a => by
    match a with
    | ⟨0, _⟩ => rfl
    | ⟨1, _⟩ => rfl)

/-- The output bias [1,1] spread over 128 rows reads its one entry. -/
theorem biasOne_apply (x : FVec Ideal S1x1 .f32) (hc : S1x1.ShapeCasts S1x1) (hb : S1x1.Broadcasts S128x1)
    (r : Fin 128) (z : Fin 1) : broadcastTo S128x1 (shapeCast S1x1 x hc) hb (ix2 r z) = x (ix2 (0 : Fin 1) (0 : Fin 1)) := by
  rw [shapeCast_self]
  exact broadcastTo_apply x hb (ix2 r z) (ix2 (0 : Fin 1) (0 : Fin 1)) (fun a => by
    match a with
    | ⟨0, _⟩ => rfl
    | ⟨1, _⟩ => rfl)

/-! ## The body's payload at an entry -/

/-- The read-out body's result at the entry (r, z) of its [128,1] block, from the five loaded blocks: the formats'
    roundings are the identity on the extended reals, each product into zero is its plain sum, the biases are read
    through their broadcasts, the zero literal is 0. -/
theorem payload_apply (x0 x1 : Vec Ideal S128x128 .f32) (x2 : Vec Ideal S1x128 .f32) (x3 : Vec Ideal S128x1 .f32)
    (x4 : Vec Ideal S1x1 .f32) (r : Fin 128) (z : Fin 1) :
    k5_pay1 (F := Ideal) x0 x1 x2 x3 x4 (ix2 r z)
      = Ideal.logistic ((∑ k : Fin 128, max ((∑ j : Fin 128, x0 (ix2 r j) * x1 (ix2 j k)) + x2 (ix2 (0 : Fin 1) k)) 0
          * x3 (ix2 k (0 : Fin 1))) + x4 (ix2 (0 : Fin 1) (0 : Fin 1))) := by
  obtain rfl : z = 0 := Subsingleton.elim _ _
  unfold k5_pay1
  show Ideal.logistic (_ + _) = _
  refine congrArg Ideal.logistic ?_
  refine congrArg₂ (· + ·) ?_ (biasOne_apply x4 _ _ r 0)
  refine (outputProduct_apply _ _ r 0).trans ?_
  refine Finset.sum_congr rfl fun k _ => ?_
  refine congrArg₂ (· * ·) ?_ rfl
  show max (_ + _) _ = _
  refine congrArg₂ max ?_ Ideal.ofBits_zero_f32
  refine congrArg₂ (· + ·) ?_ (biasRow_apply x2 _ _ r k)
  refine (hiddenProduct_apply _ _ r k).trans ?_
  refine Finset.sum_congr rfl fun j _ => ?_
  refine congrArg₂ (· * ·) ?_ rfl
  exact congrFun (shapeCast_self x0 _) (ix2 r j)

/-! ## From the one block to the array -/

theorem offsets_zero : (![0, 0] : Fin 2 → Nat) = fun _ => 0 := funext fun a => by fin_cases a <;> rfl

/-- The printed index maps, decided over the one-point grid: every window's block index is (0, 0). -/
theorem index_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

variable (V : (c : Dev nD) → (b : Ref sig .tc) → Buf (Elt Ideal) ((c : Thread nD τ).loc b))

/-- Window 0's block is its whole array (the pooled features). -/
theorem block0 (c : Dev nD) (t : Fin cfg5.N) (y : S128x128.Idx) : iblk5 (F := Ideal) V c 0 t y = V c main_v87 y := by
  obtain ⟨e0, e1, -⟩ := index_zero t
  show V c main_v87 (((cfg5.win 0).blk t).view.emb y) = V c main_v87 y
  refine congrArg (V c main_v87) (funext fun a => Fin.ext ?_)
  match a with
  | ⟨0, _⟩ => show win5_0.index t (0 : Fin 2) * 128 + 1 * (y 0).val = (y 0).val; omega
  | ⟨1, _⟩ => show win5_0.index t (1 : Fin 2) * 128 + 1 * (y 1).val = (y 1).val; omega

/-- Window 1's block is its whole array (the hidden weights). -/
theorem block1 (c : Dev nD) (t : Fin cfg5.N) (y : S128x128.Idx) : iblk5 (F := Ideal) V c 1 t y = V c main_arg18 y := by
  obtain ⟨-, -, e0, e1, -⟩ := index_zero t
  show V c main_arg18 (((cfg5.win 1).blk t).view.emb y) = V c main_arg18 y
  refine congrArg (V c main_arg18) (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- Window 2's block is its whole array (the hidden bias row). -/
theorem block2 (c : Dev nD) (t : Fin cfg5.N) (y : S1x128.Idx) : iblk5 (F := Ideal) V c 2 t y = V c main_v88 y := by
  obtain ⟨-, -, -, -, e0, e1, -⟩ := index_zero t
  show V c main_v88 (((cfg5.win 2).blk t).view.emb y) = V c main_v88 y
  refine congrArg (V c main_v88) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3's block is its whole array (the output weight column). -/
theorem block3 (c : Dev nD) (t : Fin cfg5.N) (y : S128x1.Idx) : iblk5 (F := Ideal) V c 3 t y = V c main_arg20 y := by
  obtain ⟨-, -, -, -, -, -, e0, e1, -⟩ := index_zero t
  show V c main_arg20 (((cfg5.win 3).blk t).view.emb y) = V c main_arg20 y
  refine congrArg (V c main_arg20) (funext fun a => Fin.ext ?_)
  match a with
  | ⟨0, _⟩ => show win5_3.index t (0 : Fin 2) * 128 + 1 * (y 0).val = (y 0).val; omega
  | ⟨1, _⟩ => show win5_3.index t (1 : Fin 2) * 1 + 1 * (y 1).val = (y 1).val; omega

/-- Window 4's block is its whole array (the output bias). -/
theorem block4 (c : Dev nD) (t : Fin cfg5.N) (y : S1x1.Idx) : iblk5 (F := Ideal) V c 4 t y = V c main_v89 y := by
  obtain ⟨-, -, -, -, -, -, -, -, e0, e1, -⟩ := index_zero t
  show V c main_v89 (((cfg5.win 4).blk t).view.emb y) = V c main_v89 y
  refine congrArg (V c main_v89) (funext fun a => Fin.ext ?_)
  match a with
  | ⟨0, _⟩ => show win5_4.index t (0 : Fin 2) * 1 + 1 * (y 0).val = (y 0).val; omega
  | ⟨1, _⟩ => show win5_4.index t (1 : Fin 2) * 1 + 1 * (y 1).val = (y 1).val; omega

/-- An element of the output window's block sits at its own coordinates in the output array. -/
theorem block5_emb (t : Fin cfg5.N) (y : S128x1.Idx) : ((cfg5.win 5).blk t).view.emb y = y := by
  obtain ⟨-, -, -, -, -, -, -, -, -, -, e0, e1⟩ := index_zero t
  funext a; apply Fin.ext
  match a with
  | ⟨0, _⟩ => show win5_5.index t (0 : Fin 2) * 128 + 1 * (y 0).val = (y 0).val; omega
  | ⟨1, _⟩ => show win5_5.index t (1 : Fin 2) * 1 + 1 * (y 1).val = (y 1).val; omega

/-- The body's payload of five blocks that agree entry by entry with five matrices is the read-out of those matrices,
    entry by entry. -/
theorem payload_eq_mlpOut (x0 x1 : Vec Ideal S128x128 .f32) (x2 : Vec Ideal S1x128 .f32) (x3 : Vec Ideal S128x1 .f32)
    (x4 : Vec Ideal S1x1 .f32) (A0 A1 : Mat 128 128) (A2 : Mat 1 128) (A3 : Mat 128 1) (A4 : Mat 1 1)
    (h0 : ∀ y, x0 y = A0 y) (h1 : ∀ y, x1 y = A1 y) (h2 : ∀ y, x2 y = A2 y) (h3 : ∀ y, x3 y = A3 y)
    (h4 : ∀ y, x4 y = A4 y) (y i : S128x1.Idx) (hi : i = y) :
    k5_pay1 (F := Ideal) x0 x1 x2 x3 x4 y = mlpOut A0 A1 A2 A3 A4 i := by
  subst hi
  obtain ⟨r, z, rfl⟩ : ∃ (r : Fin 128) (z : Fin 1), i = ix2 r z := ⟨i 0, i 1, eq_ix2 i⟩
  rw [payload_apply, mlpOut_apply]
  simp only [h0, h1, h2, h3, h4]

/-- What the one point writes back is the read-out of the five arrays as the region finds them, read through the
    output window's block. -/
theorem flushed_eq (c : Dev nD) (t : Fin cfg5.N) :
    (dat5 (F := Ideal) V c).flushed 5 t
      = ((cfg5.win 5).blk t).view.read (Elt Ideal)
          (mlpOut (V c main_v87) (V c main_arg18) (V c main_v88) (V c main_arg20) (V c main_v89)) := by
  show (cfg5.win 5).cut (grid5.coords t) ((dat5 (F := Ideal) V c).after 5 t) = _
  rw [after5_5]
  unfold out5_5
  rw [View.canon_unit_zero offsets_zero]
  simp only [View.ld_unit_zero (S := S128x128) offsets_zero, View.ld_unit_zero (S := S1x128) offsets_zero,
    View.ld_unit_zero (S := S128x1) offsets_zero, View.ld_unit_zero (S := S1x1) offsets_zero]
  funext y
  exact payload_eq_mlpOut (iblk5 (F := Ideal) V c 0 t) (iblk5 (F := Ideal) V c 1 t) (iblk5 (F := Ideal) V c 2 t)
    (iblk5 (F := Ideal) V c 3 t) (iblk5 (F := Ideal) V c 4 t)
    (V c main_v87) (V c main_arg18) (V c main_v88) (V c main_arg20) (V c main_v89)
    (block0 V c t) (block1 V c t) (block2 V c t) (block3 V c t) (block4 V c t) y
    (((cfg5.win 5).blk t).view.emb y) (block5_emb t y)

/-- An index of the output array is in the point's block iff each coordinate is in the block's range on its axis. -/
theorem mem_block5 (t : Fin cfg5.N) (i : S128x1.Idx) :
    i ∈ ((cfg5.win 5).blk t).view.set
      ↔ ∀ a : Fin 2, win5_5.index t a * S128x1.size a ≤ (i a).val ∧ (i a).val < win5_5.index t a * S128x1.size a + S128x1.size a := by
  show i ∈ ((View.whole main_v90).slice (win5_5.rect t)).set ↔ _
  rw [View.set_slice_whole, Rect.mem_set_unit]
  exact Iff.rfl

/-- The one point's block is the whole output array. -/
theorem cover5 (i : S128x1.Idx) : ∃ t : Fin cfg5.N, (cfg5.win 5).flush t = true ∧ i ∈ ((cfg5.win 5).blk t).view.set := by
  obtain ⟨-, -, -, -, -, -, -, -, -, -, e0, e1⟩ := index_zero t5_0
  refine ⟨t5_0, flush5_5 t5_0, ?_⟩
  rw [mem_block5]
  have hi0 : (i 0).val < 128 := (i 0).isLt
  have hi1 : (i 1).val < 1 := (i 1).isLt
  intro a
  match a with
  | ⟨0, _⟩ => show win5_5.index t5_0 (0 : Fin 2) * 128 ≤ (i 0).val ∧ (i 0).val < win5_5.index t5_0 (0 : Fin 2) * 128 + 128; omega
  | ⟨1, _⟩ => show win5_5.index t5_0 (1 : Fin 2) * 1 ≤ (i 1).val ∧ (i 1).val < win5_5.index t5_0 (1 : Fin 2) * 1 + 1; omega

/-- THE OUTPUT ARRAY after the read-out region: the read-out of the five arrays as the region finds them. -/
theorem final5 (c : Dev nD) :
    (dat5 (F := Ideal) V c).arrAt 5 cfg5.N
      = Cert.Sage.mlpOut (V c main_v87) (V c main_arg18) (V c main_v88) (V c main_arg20) (V c main_v89) :=
  (dat5 (F := Ideal) V c).arrAt_eq_of_cover 5
    (mlpOut (V c main_v87) (V c main_arg18) (V c main_v88) (V c main_arg20) (V c main_v89))
    (fun t _ => flushed_eq V c t) cover5

end Cert.Sage.Region5

end
-- ==== Proof.FoldTail.lean ====
/-
  The kernel program's tail: from the fifth layer's output to the result.

  After the fifth layer the program works on the host again: it widens the layer's output, adds up the features of each
  graph's nodes, counts the nodes of each graph and clamps the count below by one, divides, and relabels the two read-out
  biases as a row and as a 1 × 1 matrix. The last kernel region then computes the read-out of the pooled features, and one
  more host operation relabels its [128,1] column as a vector.
  The buffer contents at the segment boundaries are a fold through the program's operations. Read at any float instance,
  the fold at each buffer the last region reads is the named piece (the pooling, the bias row, the 1 × 1 bias) of what
  the buffers held at the fifth layer's exit, and at the two weight matrices it is what they held there. At the extended
  reals widening is the identity, the last region leaves the network's read-out of what it read, and so the result is
  the relabelled read-out of the pooled fifth-layer output.
-/
import proofs.«146102_j22763326669149_2_alg».proof.Proof.KRun
import proofs.«146102_j22763326669149_2_alg».proof.Proof.FoldDefs
import proofs.«146102_j22763326669149_2_alg».proof.Proof.Region5
import Idealize.ShloMosaic.Lib.StableHlo.Run

noncomputable section

namespace Cert.Sage.FoldTail

open Cert.KernelIdeal Cert.KernelIdeal.Gen Idealize.ShloMosaic Idealize.ShloMosaic.TcCoe Idealize.SL.Sem
  Idealize.ShloMosaic.StableHlo

/-! ## The host stretches around the last region, at any float instance -/

section Generic

variable {F : FTy → Type} [FloatOps F] (m : (ℓ : Loc nD τ sig) → Buf (Elt F) ℓ) (ρ : Dev nD → PrngReg) (c : Dev nD)

/-- At the last region's entry the pooled features are the pooling, over the graph labels held at the fifth layer's
    exit, of the widened fifth-layer output. -/
theorem W15_v87 : W15 (F := F) m ρ c (Proc.devRef .tc main_v87)
      = poolG (W12 m ρ c (Proc.devRef .tc main_arg2)) (extf .f32 (W12 m ρ c (Proc.devRef .tc main_v75)) bitsLt_bf16_f32) := by
  after_results_simp; rfl

/-- The hidden bias enters the last region as a row. -/
theorem W15_v88 : W15 (F := F) m ρ c (Proc.devRef .tc main_v88) = rowG (W12 m ρ c (Proc.devRef .tc main_arg19)) := by
  after_results_simp; rfl

/-- The output bias enters the last region as a 1 × 1 matrix. -/
theorem W15_v89 : W15 (F := F) m ρ c (Proc.devRef .tc main_v89) = oneG (W12 m ρ c (Proc.devRef .tc main_arg21)) := by
  after_results_simp; rfl

/-- The hidden weights are not written between the fifth layer's exit and the last region's entry. -/
theorem W15_arg18 : W15 (F := F) m ρ c (Proc.devRef .tc main_arg18) = W12 m ρ c (Proc.devRef .tc main_arg18) := by
  after_results_simp

/-- The output weights are not written between the fifth layer's exit and the last region's entry. -/
theorem W15_arg20 : W15 (F := F) m ρ c (Proc.devRef .tc main_arg20) = W12 m ρ c (Proc.devRef .tc main_arg20) := by
  after_results_simp

/-- The result is the last region's output column relabelled as a vector. -/
theorem W17_v91 : W17 (F := F) m ρ c (Proc.devRef .tc main_v91) = finG (W16 m ρ c (Proc.devRef .tc main_v90)) := by
  after_results_simp; rfl

end Generic

/-! ## At the extended reals -/

/-- Widening is the identity at the extended reals. -/
theorem extf_ideal (v : FVec Ideal S50000x128 .bf16) : extf (F := Ideal) .f32 v bitsLt_bf16_f32 = v := rfl

/-- The kernel program's result is the relabelled read-out of the pooled fifth-layer output, given what the buffers
    held at the fifth layer's exit. -/
theorem tail_result (m : (ℓ : Loc nD τ sig) → Buf (Elt Ideal) ℓ) (ρ : Dev nD → PrngReg) (c : Dev nD) (h5 : Mat 50000 128)
    (hv75 : W12 (F := Ideal) m ρ c (Proc.devRef .tc main_v75) = h5)
    (h2 : W12 (F := Ideal) m ρ c (Proc.devRef .tc main_arg2) = (m ((c.tc : Thread nD τ).loc main_arg2)))
    (h18 : W12 (F := Ideal) m ρ c (Proc.devRef .tc main_arg18) = (m ((c.tc : Thread nD τ).loc main_arg18)))
    (h19 : W12 (F := Ideal) m ρ c (Proc.devRef .tc main_arg19) = (m ((c.tc : Thread nD τ).loc main_arg19)))
    (h20 : W12 (F := Ideal) m ρ c (Proc.devRef .tc main_arg20) = (m ((c.tc : Thread nD τ).loc main_arg20)))
    (h21 : W12 (F := Ideal) m ρ c (Proc.devRef .tc main_arg21) = (m ((c.tc : Thread nD τ).loc main_arg21))) :
    W17 (F := Ideal) m ρ c (Proc.devRef .tc main_v91)
      = finG (F := Ideal) (mlpOut (poolG (F := Ideal) (m ((c.tc : Thread nD τ).loc main_arg2)) h5) (m ((c.tc : Thread nD τ).loc main_arg18))
          (rowG (F := Ideal) (m ((c.tc : Thread nD τ).loc main_arg19))) (m ((c.tc : Thread nD τ).loc main_arg20)) (oneG (F := Ideal) (m ((c.tc : Thread nD τ).loc main_arg21)))) := by
  have e87 : V15 m ρ c main_v87 = poolG (F := Ideal) (m ((c.tc : Thread nD τ).loc main_arg2)) h5 :=
    (W15_v87 m ρ c).trans (by rw [h2, hv75]; exact congrArg (poolG (F := Ideal) _) (extf_ideal h5))
  have e18 : V15 m ρ c main_arg18 = (m ((c.tc : Thread nD τ).loc main_arg18)) := (W15_arg18 m ρ c).trans h18
  have e88 : V15 m ρ c main_v88 = rowG (F := Ideal) (m ((c.tc : Thread nD τ).loc main_arg19)) := (W15_v88 m ρ c).trans (by rw [h19])
  have e20 : V15 m ρ c main_arg20 = (m ((c.tc : Thread nD τ).loc main_arg20)) := (W15_arg20 m ρ c).trans h20
  have e89 : V15 m ρ c main_v89 = oneG (F := Ideal) (m ((c.tc : Thread nD τ).loc main_arg21)) := (W15_v89 m ρ c).trans (by rw [h21])
  have e90 : W16 m ρ c (Proc.devRef .tc main_v90)
      = mlpOut (poolG (F := Ideal) (m ((c.tc : Thread nD τ).loc main_arg2)) h5) (m ((c.tc : Thread nD τ).loc main_arg18))
          (rowG (F := Ideal) (m ((c.tc : Thread nD τ).loc main_arg19))) (m ((c.tc : Thread nD τ).loc main_arg20)) (oneG (F := Ideal) (m ((c.tc : Thread nD τ).loc main_arg21))) :=
    (W16_arr m ρ c 5).trans ((Region5.final5 (V15 m ρ) c).trans (mlpOut_congr e87 e18 e88 e20 e89))
  exact (W17_v91 m ρ c).trans (congrArg (finG (F := Ideal)) e90)

end Cert.Sage.FoldTail

end
-- ==== Proof.FoldIdeal.lean ====
/-
  The kernel program's result at the extended reals, as the network of its argument arrays.

  Region by region: the k-th region's six input arrays are the neighbour sums of the previous layer's output, that output
  itself, the reciprocal degrees, the layer's two weight matrices as launched and its bias as a row; so its output array
  is the k-th layer of the network. The tail pools the fifth layer's output and reads it out.
-/
import proofs.«146102_j22763326669149_2_alg».proof.Proof.Fold
import proofs.«146102_j22763326669149_2_alg».proof.Proof.FoldTail

set_option maxRecDepth 16384

noncomputable section

namespace Cert.Sage.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- One layer of the network over the program's own neighbour sums and reciprocal degrees. -/
def layerK (E : IArr Ideal S800000x2) (h : Mat 50000 128) (Wl Wr : Mat 128 128) (b : FVec Ideal S128 .f32) : Mat 50000 128 :=
  layerOut (N := 50000) (K := 128) (H := 128) (aggG (F := Ideal) E h) h (invG (F := Ideal) E) Wl Wr (rowG (F := Ideal) b)

/-- The five layers' outputs, from the launch memory. -/
def h1 : Mat 50000 128 := layerK (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5))
def h2 : Mat 50000 128 := layerK (m ((c.tc : Thread nD τ).loc main_arg1)) (h1 m c) (m ((c.tc : Thread nD τ).loc main_arg6)) (m ((c.tc : Thread nD τ).loc main_arg7)) (m ((c.tc : Thread nD τ).loc main_arg8))
def h3 : Mat 50000 128 := layerK (m ((c.tc : Thread nD τ).loc main_arg1)) (h2 m c) (m ((c.tc : Thread nD τ).loc main_arg9)) (m ((c.tc : Thread nD τ).loc main_arg10)) (m ((c.tc : Thread nD τ).loc main_arg11))
def h4 : Mat 50000 128 := layerK (m ((c.tc : Thread nD τ).loc main_arg1)) (h3 m c) (m ((c.tc : Thread nD τ).loc main_arg12)) (m ((c.tc : Thread nD τ).loc main_arg13)) (m ((c.tc : Thread nD τ).loc main_arg14))
def h5 : Mat 50000 128 := layerK (m ((c.tc : Thread nD τ).loc main_arg1)) (h4 m c) (m ((c.tc : Thread nD τ).loc main_arg15)) (m ((c.tc : Thread nD τ).loc main_arg16)) (m ((c.tc : Thread nD τ).loc main_arg17))

/-- Region 0 leaves the first layer in its output array. -/
theorem W4_out : W4 (F := Ideal) m ρ c (Proc.devRef .tc main_v23) = h1 m c :=
  (W4_arr m ρ c 6).trans ((Region0.final0 (V3 m ρ) c).trans (layerOut_congr (W3_v21 m ρ c) (W3_arg m ρ c main_arg0 (by decide))
    (W3_v11 m ρ c) (W3_arg m ρ c main_arg3 (by decide)) (W3_arg m ρ c main_arg4 (by decide)) (W3_v22 m ρ c)))

/-- Region 1 leaves layer 2 in its output array. -/
theorem W6_out : W6 (F := Ideal) m ρ c (Proc.devRef .tc main_v36) = h2 m c :=
  (W6_arr m ρ c 6).trans ((Region1.final1 (V5 m ρ) c).trans (layerOut_congr
    ((W5_agg m ρ c).trans ((congrArg (aggB (F := Ideal) (m ((c.tc : Thread nD τ).loc main_arg1))) (W4_out m ρ c)).trans (aggB_eq _ _)))
    ((W5_prev m ρ c).trans (W4_out m ρ c))
    ((keep5 m ρ c main_v11 (by decide)).trans (W3_v11 m ρ c))
    ((keep5 m ρ c main_arg6 (by decide)).trans (W3_arg m ρ c main_arg6 (by decide)))
    ((keep5 m ρ c main_arg7 (by decide)).trans (W3_arg m ρ c main_arg7 (by decide)))
    (W5_row m ρ c)))

/-- Region 2 leaves layer 3 in its output array. -/
theorem W8_out : W8 (F := Ideal) m ρ c (Proc.devRef .tc main_v49) = h3 m c :=
  (W8_arr m ρ c 6).trans ((Region2.final2 (V7 m ρ) c).trans (layerOut_congr
    ((W7_agg m ρ c).trans ((congrArg (aggB (F := Ideal) (m ((c.tc : Thread nD τ).loc main_arg1))) (W6_out m ρ c)).trans (aggB_eq _ _)))
    ((W7_prev m ρ c).trans (W6_out m ρ c))
    ((keep7 m ρ c main_v11 (by decide)).trans (W3_v11 m ρ c))
    ((keep7 m ρ c main_arg9 (by decide)).trans (W3_arg m ρ c main_arg9 (by decide)))
    ((keep7 m ρ c main_arg10 (by decide)).trans (W3_arg m ρ c main_arg10 (by decide)))
    (W7_row m ρ c)))

/-- Region 3 leaves layer 4 in its output array. -/
theorem W10_out : W10 (F := Ideal) m ρ c (Proc.devRef .tc main_v62) = h4 m c :=
  (W10_arr m ρ c 6).trans ((Region3.final3 (V9 m ρ) c).trans (layerOut_congr
    ((W9_agg m ρ c).trans ((congrArg (aggB (F := Ideal) (m ((c.tc : Thread nD τ).loc main_arg1))) (W8_out m ρ c)).trans (aggB_eq _ _)))
    ((W9_prev m ρ c).trans (W8_out m ρ c))
    ((keep9 m ρ c main_v11 (by decide)).trans (W3_v11 m ρ c))
    ((keep9 m ρ c main_arg12 (by decide)).trans (W3_arg m ρ c main_arg12 (by decide)))
    ((keep9 m ρ c main_arg13 (by decide)).trans (W3_arg m ρ c main_arg13 (by decide)))
    (W9_row m ρ c)))

/-- Region 4 leaves layer 5 in its output array. -/
theorem W12_out : W12 (F := Ideal) m ρ c (Proc.devRef .tc main_v75) = h5 m c :=
  (W12_arr m ρ c 6).trans ((Region4.final4 (V11 m ρ) c).trans (layerOut_congr
    ((W11_agg m ρ c).trans ((congrArg (aggB (F := Ideal) (m ((c.tc : Thread nD τ).loc main_arg1))) (W10_out m ρ c)).trans (aggB_eq _ _)))
    ((W11_prev m ρ c).trans (W10_out m ρ c))
    ((keep11 m ρ c main_v11 (by decide)).trans (W3_v11 m ρ c))
    ((keep11 m ρ c main_arg15 (by decide)).trans (W3_arg m ρ c main_arg15 (by decide)))
    ((keep11 m ρ c main_arg16 (by decide)).trans (W3_arg m ρ c main_arg16 (by decide)))
    (W11_row m ρ c)))

/-- The program's result: the network of the argument arrays, over the program's own neighbour sums, reciprocal degrees
    and pooling. -/
theorem kernel_result : W17 (F := Ideal) m ρ c (Proc.devRef .tc main_v91)
    = net (N := 50000) (H := 128) (G := 128) (aggG (F := Ideal) (m ((c.tc : Thread nD τ).loc main_arg1))) (invG (F := Ideal) (m ((c.tc : Thread nD τ).loc main_arg1))) (poolG (F := Ideal) (m ((c.tc : Thread nD τ).loc main_arg2))) (finG (F := Ideal))
        (m ((c.tc : Thread nD τ).loc main_arg0)) (m ((c.tc : Thread nD τ).loc main_arg3)) (m ((c.tc : Thread nD τ).loc main_arg4)) (rowG (F := Ideal) (m ((c.tc : Thread nD τ).loc main_arg5))) (m ((c.tc : Thread nD τ).loc main_arg6)) (m ((c.tc : Thread nD τ).loc main_arg7)) (rowG (F := Ideal) (m ((c.tc : Thread nD τ).loc main_arg8)))
        (m ((c.tc : Thread nD τ).loc main_arg9)) (m ((c.tc : Thread nD τ).loc main_arg10)) (rowG (F := Ideal) (m ((c.tc : Thread nD τ).loc main_arg11))) (m ((c.tc : Thread nD τ).loc main_arg12)) (m ((c.tc : Thread nD τ).loc main_arg13)) (rowG (F := Ideal) (m ((c.tc : Thread nD τ).loc main_arg14)))
        (m ((c.tc : Thread nD τ).loc main_arg15)) (m ((c.tc : Thread nD τ).loc main_arg16)) (rowG (F := Ideal) (m ((c.tc : Thread nD τ).loc main_arg17)))
        (m ((c.tc : Thread nD τ).loc main_arg18)) (rowG (F := Ideal) (m ((c.tc : Thread nD τ).loc main_arg19))) (m ((c.tc : Thread nD τ).loc main_arg20)) (oneG (F := Ideal) (m ((c.tc : Thread nD τ).loc main_arg21))) :=
  (FoldTail.tail_result m ρ c (h5 m c) (W12_out m ρ c) ((keep12 m ρ c main_arg2 (by decide)).trans (W3_arg m ρ c main_arg2 (by decide))) ((keep12 m ρ c main_arg18 (by decide)).trans (W3_arg m ρ c main_arg18 (by decide)))
    ((keep12 m ρ c main_arg19 (by decide)).trans (W3_arg m ρ c main_arg19 (by decide))) ((keep12 m ρ c main_arg20 (by decide)).trans (W3_arg m ρ c main_arg20 (by decide))) ((keep12 m ρ c main_arg21 (by decide)).trans (W3_arg m ρ c main_arg21 (by decide)))).trans rfl

end Cert.Sage.Fold

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibLogisticForms.lean ====
/-
  The sigmoid on the extended reals, however it is spelt.

  Array code writes the sigmoid of s as 1 / (1 + exp (-s)) with the two ones as float literals; a kernel has it as one
  operation. On the extended reals the operation IS that quotient (with exp (-s) = +inf at s = -inf, where the quotient is 0, and
  exp (-s) = 0 at s = +inf, where it is 1), so the two spellings agree at every extended real once the literal word
  0x3F800000 is read as the real 1. Generic: nothing here mentions a program.
-/
import Idealize.ShloMosaic.PureOps.Ideal

noncomputable section

namespace Cert.LibLogisticForms

open Idealize.ShloMosaic

/-- The single-precision word of 1.0 is the real 1. -/
theorem ofBits_one : Ideal.ofBits .f32 0x3F800000#32 = 1 := by
  simp [Ideal.ofBits, Ideal.ieee, -EReal.coe_mul]; norm_num

/-- 1 / (1 + exp (-s)), the two ones given as anything equal to 1, is the sigmoid of s, at every extended real s. -/
theorem logistic_spelt (one1 one2 s : EReal) (h1 : one1 = 1) (h2 : one2 = 1) :
    Ideal.div one1 (one2 + Ideal.exp (-s)) = Ideal.logistic s := by
  subst h1 h2; rfl

end Cert.LibLogisticForms

end
-- ==== Proof.RefLayer.lean ====
/-
  One graph layer and the read-out, as plain array code spells them, are the network's formulas.

  Array code writes a layer as
      max( (msg / D) · Wl + x · Wr + B, 0 )
  where D repeats a degree vector d along the features and B repeats a bias vector down the rows. Read at an entry
  (r, q), each matrix product is a finite sum over the contracted coordinate, D reads d(r) and B reads b(q). The network
  multiplies the neighbour sums by the column of reciprocals 1 / d(r) where array code divides by d(r); for a divisor that
  is not zero the quotient x / d IS the product x · (1 / d) at every extended real x, infinite ones included, so the two
  agree with no finiteness assumption. A degree max(1, s) is at least 1, so it is never zero.
  The read-out is written max(g · W1 + B1, 0) · W2 + B2 followed by 1 / (1 + exp (-·)), which is the logistic function by
  definition once the literal ones are read as the real 1.
  Everything is generic in the extents; an extent that must not be the unit extent says so.
-/
import proofs.«146102_j22763326669149_2_alg».proof.Proof.Net
import proofs.«146102_j22763326669149_2_alg».proof.Proof.LibHostReads
import proofs.«146102_j22763326669149_2_alg».proof.Proof.LibLogisticForms
import Idealize.ShloMosaic.Lib.IdealHost
import Idealize.ShloMosaic.Lib.ValueLayout

noncomputable section

namespace Cert.Sage.RefLayer

open Idealize.ShloMosaic Idealize.ShloMosaic.ValueIdx Cert.LibHostReads Cert.LibLogisticForms

/-! ## Small reads -/

/-- A vector of length n reshaped to a column reads, at (r, z), the vector at r. -/
theorem shapeCast_a_a1_apply {α : Type} {n : ℕ} (x : (⟨1, ![n]⟩ : Shape).Idx → α)
    (h : (⟨1, ![n]⟩ : Shape).ShapeCasts ⟨2, ![n, 1]⟩) (r : Fin n) (z : Fin 1) :
    shapeCast ⟨2, ![n, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A one-element vector broadcast to one row [1,1] and then down m rows reads its element everywhere. -/
theorem unitBias_apply {α : Type} {m : ℕ}
    (h1 : (⟨1, ![1]⟩ : Shape).BroadcastsInDim ⟨2, ![1, 1]⟩ ![1])
    (h2 : (⟨2, ![1, 1]⟩ : Shape).BroadcastsInDim ⟨2, ![m, 1]⟩ ![0, 1])
    (b : (⟨1, ![1]⟩ : Shape).Idx → α) (r : Fin m) (z : Fin 1) :
    broadcastInDim ⟨2, ![m, 1]⟩ ![0, 1] h2 (broadcastInDim ⟨2, ![1, 1]⟩ ![1] h1 b) (ix2 r z) = b (ix1 (0 : Fin 1)) := by
  rw [broadcastInDim_apply _ h2 _ (ix2 r z) (ix2 (0 : Fin 1) (0 : Fin 1)) (fun a => match a with
      | ⟨0, _⟩ => by show 0 = if (1 : Nat) = 1 then 0 else r.val; rw [if_pos rfl]
      | ⟨1, _⟩ => by show 0 = if (1 : Nat) = 1 then 0 else z.val; rw [if_pos rfl]),
    broadcastInDim_apply _ h1 b (ix2 (0 : Fin 1) (0 : Fin 1)) (ix1 (0 : Fin 1)) (fun a => match a with
      | ⟨0, _⟩ => by show 0 = if (1 : Nat) = 1 then 0 else 0; rw [if_pos rfl])]

/-- The host's exponential at an index. -/
theorem hostExp_apply {s : Shape} {φ : FTy} (a : FVec Ideal s φ) (i : s.Idx) : Host.exp a i = Ideal.exp (a i) := rfl

/-- The host's negation at an index. -/
theorem hostNegf_apply {s : Shape} {φ : FTy} (a : FVec Ideal s φ) (i : s.Idx) : Host.negf a i = -(a i) := rfl

/-! ## A degree is never zero -/

/-- max(1, s) is nowhere zero: it is at least 1. -/
theorem maxOne_ne_zero {s : Shape} (bo : (⟨0, ![]⟩ : Shape).BroadcastsInDim s ![]) (t : FVec Ideal s .f32) (i : s.Idx) :
    maximumf (broadcastInDim s ![] bo (id (constant (F := Ideal) ⟨0, ![]⟩ .f32 0x3F800000#32))) t i ≠ 0 := by
  rw [maximumf_apply, splat_apply]
  show max (Ideal.ofBits .f32 0x3F800000#32) (t i) ≠ 0
  rw [ofBits_one]
  exact ne_of_gt (lt_of_lt_of_le zero_lt_one (le_max_left _ _))

/-! ## One layer -/

/-- The layer as array code spells it is the network's layer on the neighbour sums, the features, the column of
    reciprocal degrees, the weights and the bias row. -/
theorem hostLayer_eq {N K H : ℕ} (hN : N ≠ 1) (hH : H ≠ 1)
    (D1 D2 : DotDims ⟨2, ![N, K]⟩ ⟨2, ![K, H]⟩ ⟨2, ![N, H]⟩) (hD1 : D1 = DotDims.plain N K H) (hD2 : D2 = DotDims.plain N K H)
    (bN1 : (⟨1, ![N]⟩ : Shape).BroadcastsInDim ⟨2, ![N, 1]⟩ ![0]) (bNK : (⟨2, ![N, 1]⟩ : Shape).BroadcastsInDim ⟨2, ![N, K]⟩ ![0, 1])
    (b1H : (⟨1, ![H]⟩ : Shape).BroadcastsInDim ⟨2, ![1, H]⟩ ![1]) (bNH : (⟨2, ![1, H]⟩ : Shape).BroadcastsInDim ⟨2, ![N, H]⟩ ![0, 1])
    (bz : (⟨0, ![]⟩ : Shape).BroadcastsInDim ⟨2, ![N, H]⟩ ![]) (bo : (⟨0, ![]⟩ : Shape).BroadcastsInDim ⟨1, ![N]⟩ ![])
    (cN1 : (⟨1, ![N]⟩ : Shape).ShapeCasts ⟨2, ![N, 1]⟩) (c1H : (⟨1, ![H]⟩ : Shape).ShapeCasts ⟨2, ![1, H]⟩)
    (msg x : FVec Ideal ⟨2, ![N, K]⟩ .f32) (d : FVec Ideal ⟨1, ![N]⟩ .f32) (hd : ∀ r, d r ≠ 0)
    (Wl Wr : FVec Ideal ⟨2, ![K, H]⟩ .f32) (b : FVec Ideal ⟨1, ![H]⟩ .f32) :
    maximumf (addf (addf (Host.dotGeneral D1 none (Host.divf msg (broadcastInDim ⟨2, ![N, K]⟩ ![0, 1] bNK (broadcastInDim ⟨2, ![N, 1]⟩ ![0] bN1 d))) Wl)
                         (Host.dotGeneral D2 none x Wr))
                   (broadcastInDim ⟨2, ![N, H]⟩ ![0, 1] bNH (broadcastInDim ⟨2, ![1, H]⟩ ![1] b1H b)))
             (broadcastInDim ⟨2, ![N, H]⟩ ![] bz (constant (F := Ideal) ⟨0, ![]⟩ .f32 0x00000000#32))
      = Cert.Sage.layerOut msg x
          (shapeCast ⟨2, ![N, 1]⟩ (Host.divf (broadcastInDim ⟨1, ![N]⟩ ![] bo (constant (F := Ideal) ⟨0, ![]⟩ .f32 0x3F800000#32)) d) cN1)
          Wl Wr (shapeCast ⟨2, ![1, H]⟩ b c1H) := by
  funext i
  obtain ⟨r, q, rfl⟩ : ∃ r q, i = ix2 r q := ⟨i 0, i 1, eq_ix2 i⟩
  rw [layerOut_apply, maximumf_apply, addf_apply, addf_apply, dot_apply D1 hD1, dot_apply D2 hD2,
    rowBias_apply hH b1H bNH, splat_apply, constant_apply, Ideal.ofBits_zero_f32, shapeCast_a_1a_apply,
    shapeCast_a_a1_apply, hostDivf_apply, splat_apply, constant_apply, ofBits_one]
  congr 3
  refine Finset.sum_congr rfl fun k _ => ?_
  rw [hostDivf_apply, colBcast_apply hN, col_apply hN, Ideal.mul_one_div (hd _)]

/-! ## The read-out -/

/-- The hidden layer of the read-out at an entry. -/
theorem hostHidden_apply {G H : ℕ} (hH : H ≠ 1)
    (D1 : DotDims ⟨2, ![G, H]⟩ ⟨2, ![H, H]⟩ ⟨2, ![G, H]⟩) (hD1 : D1 = DotDims.plain G H H)
    (b1H : (⟨1, ![H]⟩ : Shape).BroadcastsInDim ⟨2, ![1, H]⟩ ![1]) (bGH : (⟨2, ![1, H]⟩ : Shape).BroadcastsInDim ⟨2, ![G, H]⟩ ![0, 1])
    (bz : (⟨0, ![]⟩ : Shape).BroadcastsInDim ⟨2, ![G, H]⟩ ![])
    (g : FVec Ideal ⟨2, ![G, H]⟩ .f32) (W1 : FVec Ideal ⟨2, ![H, H]⟩ .f32) (b1 : FVec Ideal ⟨1, ![H]⟩ .f32) (r : Fin G) (k : Fin H) :
    maximumf (addf (Host.dotGeneral D1 none g W1) (broadcastInDim ⟨2, ![G, H]⟩ ![0, 1] bGH (broadcastInDim ⟨2, ![1, H]⟩ ![1] b1H b1)))
        (broadcastInDim ⟨2, ![G, H]⟩ ![] bz (constant (F := Ideal) ⟨0, ![]⟩ .f32 0x00000000#32)) (ix2 r k)
      = max ((∑ j : Fin H, g (ix2 r j) * W1 (ix2 j k)) + b1 (ix1 k)) 0 := by
  rw [maximumf_apply, addf_apply, dot_apply D1 hD1, rowBias_apply hH b1H bGH, splat_apply, constant_apply,
    Ideal.ofBits_zero_f32]

/-- The read-out as array code spells it, the sigmoid written 1 / (1 + exp (-·)), is the network's read-out. -/
theorem hostMlp_eq {G H : ℕ} (hH : H ≠ 1)
    (D1 : DotDims ⟨2, ![G, H]⟩ ⟨2, ![H, H]⟩ ⟨2, ![G, H]⟩) (hD1 : D1 = DotDims.plain G H H)
    (D2 : DotDims ⟨2, ![G, H]⟩ ⟨2, ![H, 1]⟩ ⟨2, ![G, 1]⟩) (hD2 : D2 = DotDims.plain G H 1)
    (b1H : (⟨1, ![H]⟩ : Shape).BroadcastsInDim ⟨2, ![1, H]⟩ ![1]) (bGH : (⟨2, ![1, H]⟩ : Shape).BroadcastsInDim ⟨2, ![G, H]⟩ ![0, 1])
    (b11 : (⟨1, ![1]⟩ : Shape).BroadcastsInDim ⟨2, ![1, 1]⟩ ![1]) (bG1 : (⟨2, ![1, 1]⟩ : Shape).BroadcastsInDim ⟨2, ![G, 1]⟩ ![0, 1])
    (bz : (⟨0, ![]⟩ : Shape).BroadcastsInDim ⟨2, ![G, H]⟩ ![]) (bo : (⟨0, ![]⟩ : Shape).BroadcastsInDim ⟨2, ![G, 1]⟩ ![])
    (c1H : (⟨1, ![H]⟩ : Shape).ShapeCasts ⟨2, ![1, H]⟩) (c11 : (⟨1, ![1]⟩ : Shape).ShapeCasts ⟨2, ![1, 1]⟩)
    (g : FVec Ideal ⟨2, ![G, H]⟩ .f32) (W1 : FVec Ideal ⟨2, ![H, H]⟩ .f32) (b1 : FVec Ideal ⟨1, ![H]⟩ .f32)
    (W2 : FVec Ideal ⟨2, ![H, 1]⟩ .f32) (b2 : FVec Ideal ⟨1, ![1]⟩ .f32) :
    Host.divf (broadcastInDim ⟨2, ![G, 1]⟩ ![] bo (constant (F := Ideal) ⟨0, ![]⟩ .f32 0x3F800000#32))
        (addf (broadcastInDim ⟨2, ![G, 1]⟩ ![] bo (constant (F := Ideal) ⟨0, ![]⟩ .f32 0x3F800000#32))
          (Host.exp (Host.negf (addf
            (Host.dotGeneral D2 none
              (maximumf (addf (Host.dotGeneral D1 none g W1)
                  (broadcastInDim ⟨2, ![G, H]⟩ ![0, 1] bGH (broadcastInDim ⟨2, ![1, H]⟩ ![1] b1H b1)))
                (broadcastInDim ⟨2, ![G, H]⟩ ![] bz (constant (F := Ideal) ⟨0, ![]⟩ .f32 0x00000000#32)))
              W2)
            (broadcastInDim ⟨2, ![G, 1]⟩ ![0, 1] bG1 (broadcastInDim ⟨2, ![1, 1]⟩ ![1] b11 b2))))))
      = Cert.Sage.mlpOut g W1 (shapeCast ⟨2, ![1, H]⟩ b1 c1H) W2 (shapeCast ⟨2, ![1, 1]⟩ b2 c11) := by
  funext i
  obtain ⟨r, z, rfl⟩ : ∃ r z, i = ix2 r z := ⟨i 0, i 1, eq_ix2 i⟩
  obtain rfl : z = 0 := Subsingleton.elim z 0
  rw [mlpOut_apply, hostDivf_apply, addf_apply, splat_apply, constant_apply, hostExp_apply, hostNegf_apply, addf_apply,
    dot_apply D2 hD2, unitBias_apply b11 bG1, shapeCast_a_1a_apply]
  refine (logistic_spelt _ _ _ ofBits_one ofBits_one).trans ?_
  congr 2
  refine Finset.sum_congr rfl fun k _ => ?_
  rw [hostHidden_apply hH D1 hD1 b1H bGH bz, shapeCast_a_1a_apply]

end Cert.Sage.RefLayer

end
-- ==== Proof.RefSide.lean ====
/-
  The reference program's result is the network.

  The reference's run ends with its result at one closed term of the argument arrays. That term is the read-out of a
  pooling of five nested copies of one layer term, each copy fed the copy before it (the first one the input features)
  and the same edge list. Here the pieces are named: the neighbour sum (a gather along the edges' sources followed by a
  scatter-add at their destinations), the degree max(1, number of incoming edges), the column of its reciprocals, the
  mean pooling over the graph labels, and the final relabelling of the [128,1] column as a vector. With those names the
  term is, literally, the read-out term of the pooling of the five-fold nested layer term; each layer term is the
  network's layer (the degree is never zero, so dividing by it is multiplying by its reciprocal), and the read-out term
  is the network's read-out with the sigmoid spelt out. So the result is the network on those pieces.
-/
import proofs.«146102_j22763326669149_2_alg».proof.Proof.Gen.ReferenceIdeal.Run
import proofs.«146102_j22763326669149_2_alg».proof.Proof.RefLayer
import proofs.«146102_j22763326669149_2_alg».proof.Proof.Net

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx

/-! ## The pieces of the reference's term, named -/

/-- The neighbour sum: the rows of h gathered along the edges' sources (a negative index wrapped once), scatter-added at
    the edges' destinations into a zero array. -/
def aggR (E : (⟨S800000x2, .i32⟩ : BufTy).Contents (Elt Ideal)) (h : FVec Ideal S50000x128 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S800000x1 ![0, 1] E slices_S800000x2_S800000x1_0_1) shapeCasts_S800000x1_S800000)) (Host.gather gather_S50000x128_S800000x1_S800000x128_1_0_n_n_0_1_1128 h (broadcastInDim S800000x1 ![0] bcast_S800000_S800000x1_0 (select (cmpi .slt (shapeCast _ (extractStridedSlice S800000x1 ![0, 0] E slices_S800000x2_S800000x1_0_0) shapeCasts_S800000x1_S800000) (broadcastInDim S800000 ![] bcast_S_S800000 (constantI S_ 32 0#32))) (addi (shapeCast _ (extractStridedSlice S800000x1 ![0, 0] E slices_S800000x2_S800000x1_0_0) shapeCasts_S800000x1_S800000) (broadcastInDim S800000 ![] bcast_S_S800000 (constantI S_ 32 50000#32))) (shapeCast _ (extractStridedSlice S800000x1 ![0, 0] E slices_S800000x2_S800000x1_0_0) shapeCasts_S800000x1_S800000))))

/-- The degree: max(1, the number of edges arriving at the node). -/
def degR (E : (⟨S800000x2, .i32⟩ : BufTy).Contents (Elt Ideal)) : FVec Ideal S50000 .f32 :=
  maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S800000x1 ![0, 1] E slices_S800000x2_S800000x1_0_1) shapeCasts_S800000x1_S800000)) (broadcastInDim S800000 ![] bcast_S_S800000 (constant S_ .f32 0x3F800000#32)))

/-- The column of reciprocal degrees. -/
def invR (cN1 : S50000.ShapeCasts S50000x1) (E : (⟨S800000x2, .i32⟩ : BufTy).Contents (Elt Ideal)) : FVec Ideal S50000x1 .f32 :=
  shapeCast S50000x1 (Host.divf (F := Ideal) (broadcastInDim S50000 ![] bcast_S_S50000 (constant S_ .f32 0x3F800000#32)) (degR E)) cN1

/-- The mean pooling: the rows of h scatter-added at their graph labels, divided by max(1, the label's count). -/
def poolR (B : (⟨S50000, .i32⟩ : BufTy).Contents (Elt Ideal)) (h : FVec Ideal S50000x128 .f32) : FVec Ideal S128x128 .f32 :=
  Host.divf (Host.scatterAdd scatter_S128x128_S50000x1_S50000x128_1_0_0_1 (broadcastInDim S128x128 ![] bcast_S_S128x128 (constant S_ .f32 0x00000000#32)) (broadcastInDim S50000x1 ![0] bcast_S50000_S50000x1_0 B) h) (broadcastInDim S128x128 ![0, 1] bcast_S128x1_S128x128_0_1 (broadcastInDim S128x1 ![0] bcast_S128_S128x1_0 (maximumf (broadcastInDim S128 ![] bcast_S_S128 (id (constant S_ .f32 0x3F800000#32))) (Host.scatterAdd scatter_S128_S50000x1_S50000_n_0_0_1 (broadcastInDim S128 ![] bcast_S_S128 (constant S_ .f32 0x00000000#32)) (broadcastInDim S50000x1 ![0] bcast_S50000_S50000x1_0 B) (broadcastInDim S50000 ![] bcast_S_S50000 (constant S_ .f32 0x3F800000#32))))))

/-- The final relabelling: the [128,1] column as a vector. -/
def finR (y : FVec Ideal S128x1 .f32) : FVec Ideal S128 .f32 := shapeCast S128 y shapeCasts_S128x1_S128

/-- One layer as the reference spells it. -/
def layerR (E : (⟨S800000x2, .i32⟩ : BufTy).Contents (Elt Ideal)) (h : FVec Ideal S50000x128 .f32)
    (Wl Wr : FVec Ideal S128x128 .f32) (b : FVec Ideal S128 .f32) : FVec Ideal S50000x128 .f32 :=
  maximumf (addf (addf (Host.dotGeneral dot_S50000x128_S128x128_S50000x128_1_0_0_1_n_n none (Host.divf (aggR E h) (broadcastInDim S50000x128 ![0, 1] bcast_S50000x1_S50000x128_0_1 (broadcastInDim S50000x1 ![0] bcast_S50000_S50000x1_0 (degR E)))) Wl) (Host.dotGeneral dot_S50000x128_S128x128_S50000x128_1_0_0_1_n_n none h Wr)) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The pooling and the read-out as the reference spells them. -/
def tailR (B : (⟨S50000, .i32⟩ : BufTy).Contents (Elt Ideal)) (h : FVec Ideal S50000x128 .f32)
    (W1 : FVec Ideal S128x128 .f32) (b1 : FVec Ideal S128 .f32) (W2 : FVec Ideal S128x1 .f32) (b2 : FVec Ideal S1 .f32) :
    FVec Ideal S128 .f32 :=
  shapeCast _ (Host.divf (broadcastInDim S128x1 ![] bcast_S_S128x1 (constant S_ .f32 0x3F800000#32)) (addf (broadcastInDim S128x1 ![] bcast_S_S128x1 (constant S_ .f32 0x3F800000#32)) (Host.exp (Host.negf (addf (Host.dotGeneral dot_S128x128_S128x1_S128x1_1_0_0_1_n_n none (maximumf (addf (Host.dotGeneral dot_S128x128_S128x128_S128x128_1_0_0_1_n_n none (poolR B h) W1) (broadcastInDim S128x128 ![0, 1] bcast_S1x128_S128x128_0_1 (broadcastInDim S1x128 ![1] bcast_S128_S1x128_1 b1))) (broadcastInDim S128x128 ![] bcast_S_S128x128 (constant S_ .f32 0x00000000#32))) W2) (broadcastInDim S128x1 ![0, 1] bcast_S1x1_S128x1_0_1 (broadcastInDim S1x1 ![1] bcast_S1_S1x1_1 b2))))))) shapeCasts_S128x1_S128

/-! ## The result is the nested term -/

set_option maxRecDepth 8192 in
/-- The reference's result is the read-out term of the pooling of the five-fold nested layer term: the same term, with
    its pieces named. -/
theorem res_nest (m : (ℓ : Loc nD τ sig) → Buf (Elt Ideal) ℓ) (c : Dev nD) :
    Cert.ReferenceIdeal.Value.res_main_v135 (F := Ideal) m c
      = tailR (m ((c.tc : Thread nD τ).loc main_arg2)) (layerR (m ((c.tc : Thread nD τ).loc main_arg1)) (layerR (m ((c.tc : Thread nD τ).loc main_arg1)) (layerR (m ((c.tc : Thread nD τ).loc main_arg1)) (layerR (m ((c.tc : Thread nD τ).loc main_arg1)) (layerR (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16)) (m ((c.tc : Thread nD τ).loc main_arg17)))
          (m ((c.tc : Thread nD τ).loc main_arg18)) (m ((c.tc : Thread nD τ).loc main_arg19)) (m ((c.tc : Thread nD τ).loc main_arg20)) (m ((c.tc : Thread nD τ).loc main_arg21)) := rfl

/-! ## Each piece is the network's -/

/-- The plain record of the layers' products. -/
theorem dotL_plain : dot_S50000x128_S128x128_S50000x128_1_0_0_1_n_n = DotDims.plain 50000 128 128 := rfl

/-- The plain record of the read-out's hidden product. -/
theorem dotH_plain : dot_S128x128_S128x128_S128x128_1_0_0_1_n_n = DotDims.plain 128 128 128 := rfl

/-- The plain record of the read-out's output product. -/
theorem dotO_plain : dot_S128x128_S128x1_S128x1_1_0_0_1_n_n = DotDims.plain 128 128 1 := rfl

/-- The degree is never zero. -/
theorem degR_ne_zero (E : (⟨S800000x2, .i32⟩ : BufTy).Contents (Elt Ideal)) (r : S50000.Idx) : degR E r ≠ 0 :=
  RefLayer.maxOne_ne_zero _ _ r

/-- The reference's layer term is the network's layer on the neighbour sums, the features, the reciprocal degrees, the
    weights and the bias as a row. -/
theorem layerR_eq (cN1 : S50000.ShapeCasts S50000x1) (c1H : S128.ShapeCasts S1x128)
    (E : (⟨S800000x2, .i32⟩ : BufTy).Contents (Elt Ideal)) (h : FVec Ideal S50000x128 .f32)
    (Wl Wr : FVec Ideal S128x128 .f32) (b : FVec Ideal S128 .f32) :
    layerR E h Wl Wr b = Cert.Sage.layerOut (aggR E h) h (invR cN1 E) Wl Wr (shapeCast S1x128 b c1H) :=
  RefLayer.hostLayer_eq (N := 50000) (K := 128) (H := 128) (by decide) (by decide) _ _ dotL_plain dotL_plain
    bcast_S50000_S50000x1_0 bcast_S50000x1_S50000x128_0_1 bcast_S128_S1x128_1 bcast_S1x128_S50000x128_0_1
    bcast_S_S50000x128 bcast_S_S50000 cN1 c1H (aggR E h) h (degR E) (degR_ne_zero E) Wl Wr b

/-- The reference's pooling-and-read-out term is the network's read-out of the pooled features, relabelled. -/
theorem tailR_eq (c1H : S128.ShapeCasts S1x128) (c11 : S1.ShapeCasts S1x1)
    (B : (⟨S50000, .i32⟩ : BufTy).Contents (Elt Ideal)) (h : FVec Ideal S50000x128 .f32)
    (W1 : FVec Ideal S128x128 .f32) (b1 : FVec Ideal S128 .f32) (W2 : FVec Ideal S128x1 .f32) (b2 : FVec Ideal S1 .f32) :
    tailR B h W1 b1 W2 b2
      = finR (Cert.Sage.mlpOut (poolR B h) W1 (shapeCast S1x128 b1 c1H) W2 (shapeCast S1x1 b2 c11)) :=
  congrArg finR (RefLayer.hostMlp_eq (G := 128) (H := 128) (by decide) _ dotH_plain _ dotO_plain
    bcast_S128_S1x128_1 bcast_S1x128_S128x128_0_1 bcast_S1_S1x1_1 bcast_S1x1_S128x1_0_1 bcast_S_S128x128 bcast_S_S128x1
    c1H c11 (poolR B h) W1 b1 W2 b2)

/-! ## The result is the network -/

/-- The reference's result is the network: five layers over the neighbour sum and the reciprocal degrees of the edge
    list, the mean pooling over the graph labels, the read-out, and the relabelling of its column as a vector. -/
theorem ref_result (cN1 : S50000.ShapeCasts S50000x1) (c1H : S128.ShapeCasts S1x128) (c11 : S1.ShapeCasts S1x1)
    (m : (ℓ : Loc nD τ sig) → Buf (Elt Ideal) ℓ) (c : Dev nD) :
    Cert.ReferenceIdeal.Value.res_main_v135 (F := Ideal) m c
      = Cert.Sage.net (N := 50000) (H := 128) (G := 128) (aggR (m ((c.tc : Thread nD τ).loc main_arg1))) (invR cN1 (m ((c.tc : Thread nD τ).loc main_arg1))) (poolR (m ((c.tc : Thread nD τ).loc main_arg2))) finR
          (m ((c.tc : Thread nD τ).loc main_arg0))
          (m ((c.tc : Thread nD τ).loc main_arg3))
          (m ((c.tc : Thread nD τ).loc main_arg4))
          (shapeCast S1x128 (m ((c.tc : Thread nD τ).loc main_arg5)) c1H)
          (m ((c.tc : Thread nD τ).loc main_arg6))
          (m ((c.tc : Thread nD τ).loc main_arg7))
          (shapeCast S1x128 (m ((c.tc : Thread nD τ).loc main_arg8)) c1H)
          (m ((c.tc : Thread nD τ).loc main_arg9))
          (m ((c.tc : Thread nD τ).loc main_arg10))
          (shapeCast S1x128 (m ((c.tc : Thread nD τ).loc main_arg11)) c1H)
          (m ((c.tc : Thread nD τ).loc main_arg12))
          (m ((c.tc : Thread nD τ).loc main_arg13))
          (shapeCast S1x128 (m ((c.tc : Thread nD τ).loc main_arg14)) c1H)
          (m ((c.tc : Thread nD τ).loc main_arg15))
          (m ((c.tc : Thread nD τ).loc main_arg16))
          (shapeCast S1x128 (m ((c.tc : Thread nD τ).loc main_arg17)) c1H)
          (m ((c.tc : Thread nD τ).loc main_arg18))
          (shapeCast S1x128 (m ((c.tc : Thread nD τ).loc main_arg19)) c1H)
          (m ((c.tc : Thread nD τ).loc main_arg20))
          (shapeCast S1x1 (m ((c.tc : Thread nD τ).loc main_arg21)) c11) := by
  rw [res_nest, tailR_eq c1H c11, layerR_eq cN1 c1H, layerR_eq cN1 c1H, layerR_eq cN1 c1H, layerR_eq cN1 c1H,
    layerR_eq cN1 c1H]
  rfl

end Cert.Sage.Ref

end
-- ==== Proof.Bridge.lean ====
/-
  The reference's host-side pieces are the kernel program's.

  Both programs were lowered from the same array code for the edge columns, the in-degrees, the neighbour sums, the
  pooling and the final relabelling: the operations, their dimension records' contents and the literals agree, so each
  piece of the one program is the same function as the piece of the other.
-/
import proofs.«146102_j22763326669149_2_alg».proof.Proof.RefSide
import proofs.«146102_j22763326669149_2_alg».proof.Proof.FoldDefs

noncomputable section

namespace Cert.Sage.Bridge

open Idealize.ShloMosaic

/-- Neighbour sums: one function in both programs. -/
theorem agg_eq (E : IArr Ideal Cert.KernelIdeal.S800000x2) : Cert.Sage.Ref.aggR E = aggG (F := Ideal) E := rfl

/-- Reciprocal clamped degrees: one column in both programs. -/
theorem inv_eq (E : IArr Ideal Cert.KernelIdeal.S800000x2) :
    Cert.Sage.Ref.invR Cert.KernelIdeal.Gen.shapeCasts_S50000_S50000x1 E = invG (F := Ideal) E := rfl

/-- Mean pooling: one function in both programs. -/
theorem pool_eq (B : IArr Ideal Cert.KernelIdeal.S50000) : Cert.Sage.Ref.poolR B = poolG (F := Ideal) B := rfl

/-- The final relabelling: one function in both programs. -/
theorem fin_eq : Cert.Sage.Ref.finR = finG (F := Ideal) := rfl

end Cert.Sage.Bridge

end
-- ==== Proof.lean ====
/-
  The certificate: the node-tiled graph network against its plain array reference, on the extended reals.

  Both programs compute five mean-aggregation graph layers, a mean pooling over graphs and a two-stage read-out ending
  in a sigmoid. The kernel program runs each layer as a row-blocked kernel between host gathers and scatter-adds, and the
  read-out as one more kernel; the reference is host code throughout. On the extended reals the two agree entry by entry:
  a block of rows of a matrix product is that block of the whole product; multiplying the neighbour sums by the
  reciprocal of a degree clamped below by one is dividing by it, at every extended real, since that degree is never
  zero; narrowing and widening between float formats are the identity; the kernel's logistic is the reference's
  1 / (1 + exp(-s)); and the gathers, scatter-adds and reshapes around the kernels are the reference's own operations.
  No finiteness of the inputs is used: the precondition is never opened.

  The three frames: the two kernel programs by their generated frame proofs, the reference by its generated run with the
  result dropped. The idealization rewrote nothing, so there is nothing to preserve. The value claim: the kernel program's
  result array, read off its run region by region, and the reference's composed term, read layer by layer, are the same
  network of the same argument arrays.
-/
import proofs.«146102_j22763326669149_2_alg».proof.Defs
import proofs.«146102_j22763326669149_2_alg».proof.Proof.Gen.Kernel
import proofs.«146102_j22763326669149_2_alg».proof.Proof.Gen.Kernel.Frame
import proofs.«146102_j22763326669149_2_alg».proof.Proof.Gen.KernelIdeal
import proofs.«146102_j22763326669149_2_alg».proof.Proof.Gen.KernelIdeal.Frame
import proofs.«146102_j22763326669149_2_alg».proof.Proof.Gen.ReferenceIdeal
import proofs.«146102_j22763326669149_2_alg».proof.Proof.Gen.ReferenceIdeal.Run
import proofs.«146102_j22763326669149_2_alg».proof.Proof.Gen.Pre_finite_inputs
import proofs.«146102_j22763326669149_2_alg».proof.Proof.KRun
import proofs.«146102_j22763326669149_2_alg».proof.Proof.FoldIdeal
import proofs.«146102_j22763326669149_2_alg».proof.Proof.RefSide
import proofs.«146102_j22763326669149_2_alg».proof.Proof.Bridge
import Idealize.ShloMosaic.Adequacy
import Idealize.ShloMosaic.Init

noncomputable section

namespace Cert.Proof

open Idealize.ShloMosaic Idealize.SL.Sem

/-- The kernel program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end, with the same result: the network of the arguments. -/
theorem algebraic : Cert.algebraic_KernelIdeal_ReferenceIdeal := by
  intro m ρ m' ρ' _ hagree
  refine ⟨fun c => Cert.KernelIdeal.Gen.W17 (F := Ideal) m ρ c (Proc.devRef .tc Cert.KernelIdeal.main_v91),
    Cert.Sage.KRun.run_result (F := Ideal) m ρ, ?_⟩
  refine (θ_run Cert.ReferenceIdeal.defs _ _).mono (fun r h c => ⟨(h c).1.trans ?_, (h c).2⟩)
    (Cert.ReferenceIdeal.Value.run (F := Ideal) m' ρ')
  beta_reduce
  obtain ⟨e0, e1, e2, e3, e4, e5, e6, e7, e8, e9, e10, e11, e12, e13, e14, e15, e16, e17, e18, e19, e20, e21⟩ := hagree c
  rw [Cert.Sage.Fold.kernel_result m ρ c,
    Cert.Sage.Ref.ref_result Cert.KernelIdeal.Gen.shapeCasts_S50000_S50000x1 Cert.KernelIdeal.Gen.shapeCasts_S128_S1x128
      Cert.KernelIdeal.Gen.shapeCasts_S1_S1x1 m' c,
    e0, e1, e2, e3, e4, e5, e6, e7, e8, e9, e10, e11, e12, e13, e14, e15, e16, e17, e18, e19, e20, e21, Cert.Sage.Bridge.agg_eq, Cert.Sage.Bridge.inv_eq, Cert.Sage.Bridge.pool_eq, Cert.Sage.Bridge.fin_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
